-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S4096x2048 : Shape := ⟨2, ![4096, 2048]⟩
abbrev S4096 : Shape := ⟨1, ![4096]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S4096 .f32) (main_arg8 : FVec F S4096 .f32) (main_arg9 : FVec F S1024 .f32) (main_arg10 : FVec F S1024 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S4096x2048 .f32) (main_arg5 : FVec F S4096 .f32) (main_arg6 : FVec F S4096 .f32) (main_arg7 : FVec F S4096 .f32) (main_arg8 : FVec F S4096 .f32) (main_arg9 : FVec F S1024 .f32) (main_arg10 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x1024 .f32) (main_arg1 : FVec F S16384x1024 .f32) (main_arg2 : FVec F S16384x1024 .f32) (main_arg3 : FVec F S4096x1024 .f32) (main_arg4 : FVec F S4096x2048 .f32) (main_arg5 : FVec F S4096 .f32) (main_arg6 : FVec F S4096 .f32) (main_arg7 : FVec F S4096 .f32) (main_arg8 : FVec F S4096 .f32) (main_arg9 : FVec F S1024 .f32) (main_arg10 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_v13 main_v16
-- ==== Kernel.lean ====
abbrev S16384x1024 : Shape := ⟨2, ![16384, 1024]⟩
abbrev S4096x1024 : Shape := ⟨2, ![4096, 1024]⟩
abbrev S4096x2048 : Shape := ⟨2, ![4096, 2048]⟩
abbrev S4096 : Shape := ⟨1, ![4096]⟩
abbrev S1024 : Shape := ⟨1, ![1024]⟩
abbrev S1024x4096 : Shape := ⟨2, ![1024, 4096]⟩
abbrev S2048x4096 : Shape := ⟨2, ![2048, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x4096 : Shape := ⟨2, ![1, 4096]⟩
abbrev S1x1024 : Shape := ⟨2, ![1, 1024]⟩

abbrev nBuf : Space → Nat
  | .hbm => 18
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4096x1024, .f32⟩
  | .hbm, ⟨4, _⟩ => ⟨S4096x2048, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S1024, .f32⟩
  | .hbm, ⟨10, _⟩ => ⟨S1024, .f32⟩
  | .hbm, ⟨11, _⟩ => ⟨S1024x4096, .f32⟩
  | .hbm, ⟨12, _⟩ => ⟨S1024x4096, .bf16⟩
  | .hbm, ⟨13, _⟩ => ⟨S2048x4096, .f32⟩
  | .hbm, ⟨14, _⟩ => ⟨S2048x4096, .bf16⟩
  | .hbm, ⟨15, _⟩ => ⟨S1024x4096, .bf16⟩
  | .hbm, ⟨16, _⟩ => ⟨S1024x4096, .bf16⟩
  | .hbm, ⟨17, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1024x4096, .bf16⟩
  | .local _ .vmem, ⟨9, _⟩ => ⟨S4096, .f32⟩
  | .local _ .vmem, ⟨10, _⟩ => ⟨S4096, .f32⟩
  | .local _ .vmem, ⟨11, _⟩ => ⟨S4096, .f32⟩
  | .local _ .vmem, ⟨12, _⟩ => ⟨S4096, .f32⟩
  | .local _ .vmem, ⟨13, _⟩ => ⟨S1024, .f32⟩
  | .local _ .vmem, ⟨14, _⟩ => ⟨S1024, .f32⟩
  | .local _ .vmem, ⟨15, _⟩ => ⟨S256x1024, .f32⟩
  | .local _ .vmem, ⟨16, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S4096x1024_S1024x4096_1_0 : S4096x1024.Transposes [1, 0] S1024x4096
  bitsLt_bf16_f32 : FTy.bits .bf16 < FTy.bits .f32
  transposes_S4096x2048_S2048x4096_1_0 : S4096x2048.Transposes [1, 0] S2048x4096
  slices_S2048x4096_S1024x4096_0_0 : S2048x4096.Slices ![0, 0] S1024x4096
  slices_S2048x4096_S1024x4096_1024_0 : S2048x4096.Slices ![1024, 0] S1024x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  reduces_S256x4096_S256 : S256x4096.Reduces [1] S256
  shapeCasts_S256_S256x1 : S256.ShapeCasts S256x1
  broadcasts_S256x1_S256x4096 : S256x1.Broadcasts S256x4096
  shapeCasts_S4096_S1x4096 : S4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S1024_S1024_0 : ∀ a, (![0] : Fin 1 → Nat) a + S1024.size a ≤ S1024.size a
  h_S1024 : 0 < S1024.numel
  reduces_S256x1024_S256 : S256x1024.Reduces [1] S256
  broadcasts_S256x1_S256x1024 : S256x1.Broadcasts S256x1024
  shapeCasts_S1024_S1x1024 : S1024.ShapeCasts S1x1024
  broadcasts_S1x1024_S256x1024 : S1x1024.Broadcasts S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096.size a ≤ S4096.size a
  hwx0_6 : ∀ i : grid0.Coords, EltTy.bits .f32 = 32 ∨ (Rect.block (s := S4096) S4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096.size a ≤ S4096.size a
  hwx0_7 : ∀ i : grid0.Coords, EltTy.bits .f32 = 32 ∨ (Rect.block (s := S4096) S4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4096.size a ≤ S4096.size a
  hwx0_8 : ∀ i : grid0.Coords, EltTy.bits .f32 = 32 ∨ (Rect.block (s := S4096) S4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4096.size a ≤ S4096.size a
  hwx0_9 : ∀ i : grid0.Coords, EltTy.bits .f32 = 32 ∨ (Rect.block (s := S4096) S4096.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S1024.size a
  hwx0_10 : ∀ i : grid0.Coords, EltTy.bits .f32 = 32 ∨ (Rect.block (s := S1024) S1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024.size a ≤ S1024.size a
  hwx0_11 : ∀ i : grid0.Coords, EltTy.bits .f32 = 32 ∨ (Rect.block (s := S1024) S1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1024.size a ≤ S16384x1024.size a
  hwx0_12 : ∀ i : grid0.Coords, EltTy.bits .f32 = 32 ∨ (Rect.block (s := S16384x1024) S256x1024.size (cc0_transform_12 i) (hinb0_12 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S4096.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S256x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S4096x2048 : Shape := ⟨2, ![4096, 2048]⟩
abbrev S4096 : Shape := ⟨1, ![4096]⟩
abbrev S1024 : Shape := ⟨1, ![1024]⟩
abbrev S16384x2048 : Shape := ⟨2, ![16384, 2048]⟩
abbrev S1024x4096 : Shape := ⟨2, ![1024, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S2048x4096 : Shape := ⟨2, ![2048, 4096]⟩
abbrev S1x1024 : Shape := ⟨2, ![1, 1024]⟩

abbrev nBuf : Space → Nat
  | .hbm => 145
  | .vmem => 0
  | .smem => 0
  | _ => 0

abbrev hbmTy0_0 (i : Nat) : BufTy := match i % 128 with
  | 0 => ⟨S16384x1024, .f32⟩
  | 1 => ⟨S16384x1024, .f32⟩
  | 2 => ⟨S16384x1024, .f32⟩
  | 3 => ⟨S4096x1024, .f32⟩
  | 4 => ⟨S4096x2048, .f32⟩
  | 5 => ⟨S4096, .f32⟩
  | 6 => ⟨S4096, .f32⟩
  | 7 => ⟨S4096, .f32⟩
  | 8 => ⟨S4096, .f32⟩
  | 9 => ⟨S1024, .f32⟩
  | 10 => ⟨S1024, .f32⟩
  | 11 => ⟨S16384x2048, .f32⟩
  | 12 => ⟨S1024x4096, .f32⟩
  | 13 => ⟨S16384x4096, .f32⟩
  | 14 => ⟨S_, .f32⟩
  | 15 => ⟨S16384, .f32⟩
  | 16 => ⟨S16384x1, .f32⟩
  | 17 => ⟨S_, .f32⟩
  | 18 => ⟨S16384x1, .f32⟩
  | 19 => ⟨S16384x1, .f32⟩
  | 20 => ⟨S16384x4096, .f32⟩
  | 21 => ⟨S16384x4096, .f32⟩
  | 22 => ⟨S16384x4096, .f32⟩
  | 23 => ⟨S_, .f32⟩
  | 24 => ⟨S16384, .f32⟩
  | 25 => ⟨S16384x1, .f32⟩
  | 26 => ⟨S_, .f32⟩
  | 27 => ⟨S16384x1, .f32⟩
  | 28 => ⟨S16384x1, .f32⟩
  | 29 => ⟨S16384x4096, .f32⟩
  | 30 => ⟨S16384x4096, .f32⟩
  | 31 => ⟨S_, .f32⟩
  | 32 => ⟨S16384x1, .f32⟩
  | 33 => ⟨S16384x1, .f32⟩
  | 34 => ⟨S16384x1, .f32⟩
  | 35 => ⟨S16384x4096, .f32⟩
  | 36 => ⟨S16384x4096, .f32⟩
  | 37 => ⟨S1x4096, .f32⟩
  | 38 => ⟨S16384x4096, .f32⟩
  | 39 => ⟨S16384x4096, .f32⟩
  | 40 => ⟨S1x4096, .f32⟩
  | 41 => ⟨S16384x4096, .f32⟩
  | 42 => ⟨S16384x4096, .f32⟩
  | 43 => ⟨S2048x4096, .f32⟩
  | 44 => ⟨S16384x4096, .f32⟩
  | 45 => ⟨S_, .f32⟩
  | 46 => ⟨S16384, .f32⟩
  | 47 => ⟨S16384x1, .f32⟩
  | 48 => ⟨S_, .f32⟩
  | 49 => ⟨S16384x1, .f32⟩
  | 50 => ⟨S16384x1, .f32⟩
  | 51 => ⟨S16384x4096, .f32⟩
  | 52 => ⟨S16384x4096, .f32⟩
  | 53 => ⟨S16384x4096, .f32⟩
  | 54 => ⟨S_, .f32⟩
  | 55 => ⟨S16384, .f32⟩
  | 56 => ⟨S16384x1, .f32⟩
  | 57 => ⟨S_, .f32⟩
  | 58 => ⟨S16384x1, .f32⟩
  | 59 => ⟨S16384x1, .f32⟩
  | 60 => ⟨S16384x4096, .f32⟩
  | 61 => ⟨S16384x4096, .f32⟩
  | 62 => ⟨S_, .f32⟩
  | 63 => ⟨S16384x1, .f32⟩
  | 64 => ⟨S16384x1, .f32⟩
  | 65 => ⟨S16384x1, .f32⟩
  | 66 => ⟨S16384x4096, .f32⟩
  | 67 => ⟨S16384x4096, .f32⟩
  | 68 => ⟨S1x4096, .f32⟩
  | 69 => ⟨S16384x4096, .f32⟩
  | 70 => ⟨S16384x4096, .f32⟩
  | 71 => ⟨S1x4096, .f32⟩
  | 72 => ⟨S16384x4096, .f32⟩
  | 73 => ⟨S16384x4096, .f32⟩
  | 74 => ⟨S16384x4096, .f32⟩
  | 75 => ⟨S16384x1024, .f32⟩
  | 76 => ⟨S16384x1024, .f32⟩
  | 77 => ⟨S16384x1024, .f32⟩
  | 78 => ⟨S16384x1024, .f32⟩
  | 79 => ⟨S16384x1024, .f32⟩
  | 80 => ⟨S16384x1024, .f32⟩
  | 81 => ⟨S16384x1024, .f32⟩
  | 82 => ⟨S_, .f32⟩
  | 83 => ⟨S16384x1024, .f32⟩
  | 84 => ⟨S16384x1024, .f32⟩
  | 85 => ⟨S_, .f32⟩
  | 86 => ⟨S16384x1024, .f32⟩
  | 87 => ⟨S16384x1024, .f32⟩
  | 88 => ⟨S16384x1024, .f32⟩
  | 89 => ⟨S16384x1024, .f32⟩
  | 90 => ⟨S_, .f32⟩
  | 91 => ⟨S16384x1024, .f32⟩
  | 92 => ⟨S16384x1024, .f32⟩
  | 93 => ⟨S_, .f32⟩
  | 94 => ⟨S16384x1024, .f32⟩
  | 95 => ⟨S16384x1024, .f32⟩
  | 96 => ⟨S16384x1024, .f32⟩
  | 97 => ⟨S16384x1024, .f32⟩
  | 98 => ⟨S_, .f32⟩
  | 99 => ⟨S16384x1024, .f32⟩
  | 100 => ⟨S16384x1024, .f32⟩
  | 101 => ⟨S_, .f32⟩
  | 102 => ⟨S16384x1024, .f32⟩
  | 103 => ⟨S16384x1024, .f32⟩
  | 104 => ⟨S16384x1024, .f32⟩
  | 105 => ⟨S16384x1024, .f32⟩
  | 106 => ⟨S16384x1024, .f32⟩
  | 107 => ⟨S16384x1024, .f32⟩
  | 108 => ⟨S_, .f32⟩
  | 109 => ⟨S16384x1024, .f32⟩
  | 110 => ⟨S16384x1024, .f32⟩
  | 111 => ⟨S16384x1024, .f32⟩
  | 112 => ⟨S16384x1024, .f32⟩
  | 113 => ⟨S16384x1024, .f32⟩
  | 114 => ⟨S16384x1024, .f32⟩
  | 115 => ⟨S16384x1024, .f32⟩
  | 116 => ⟨S_, .f32⟩
  | 117 => ⟨S16384, .f32⟩
  | 118 => ⟨S16384x1, .f32⟩
  | 119 => ⟨S_, .f32⟩
  | 120 => ⟨S16384x1, .f32⟩
  | 121 => ⟨S16384x1, .f32⟩
  | 122 => ⟨S16384x1024, .f32⟩
  | 123 => ⟨S16384x1024, .f32⟩
  | 124 => ⟨S16384x1024, .f32⟩
  | 125 => ⟨S_, .f32⟩
  | 126 => ⟨S16384, .f32⟩
  | 127 => ⟨S16384x1, .f32⟩
  | _ => ⟨S16384x1024, .f32⟩

abbrev hbmTy0_1 (i : Nat) : BufTy := match i % 128 with
  | 0 => ⟨S_, .f32⟩
  | 1 => ⟨S16384x1, .f32⟩
  | 2 => ⟨S16384x1, .f32⟩
  | 3 => ⟨S16384x1024, .f32⟩
  | 4 => ⟨S16384x1024, .f32⟩
  | 5 => ⟨S_, .f32⟩
  | 6 => ⟨S16384x1, .f32⟩
  | 7 => ⟨S16384x1, .f32⟩
  | 8 => ⟨S16384x1, .f32⟩
  | 9 => ⟨S16384x1024, .f32⟩
  | 10 => ⟨S16384x1024, .f32⟩
  | 11 => ⟨S1x1024, .f32⟩
  | 12 => ⟨S16384x1024, .f32⟩
  | 13 => ⟨S16384x1024, .f32⟩
  | 14 => ⟨S1x1024, .f32⟩
  | 15 => ⟨S16384x1024, .f32⟩
  | 16 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_9 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_13 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_15 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_16 : Ref sig .tc := ⟨.hbm, 116, rfl⟩
abbrev main_v88 : Ref sig .tc := ⟨.hbm, 117, rfl⟩
abbrev main_v89 : Ref sig .tc := ⟨.hbm, 118, rfl⟩
abbrev main_cst_17 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_18 : Ref sig .tc := ⟨.hbm, 125, rfl⟩
abbrev main_v95 : Ref sig .tc := ⟨.hbm, 126, rfl⟩
abbrev main_v96 : Ref sig .tc := ⟨.hbm, 127, rfl⟩
abbrev main_cst_19 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_20 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  transposes_S4096x1024_S1024x4096_1_0 : S4096x1024.Transposes [1, 0] S1024x4096
  reducesTo_S16384x4096_S16384_d1 : S16384x4096.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x4096_0_1 : S16384x1.BroadcastsInDim S16384x4096 (![0, 1] : Fin 2 → Fin S16384x4096.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  transposes_S4096x2048_S2048x4096_1_0 : S4096x2048.Transposes [1, 0] S2048x4096
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  reducesTo_S16384x1024_S16384_d1 : S16384x1024.ReducesTo [1] S16384
  bcast_S16384x1_S16384x1024_0_1 : S16384x1.BroadcastsInDim S16384x1024 (![0, 1] : Fin 2 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x1024_S1024x4096_S16384x4096_1_0_0_1_n_n_wf : DotDims.WF S16384x1024 S1024x4096 S16384x4096 [1] [0] [0] [1] [] []
  dot_S16384x2048_S2048x4096_S16384x4096_1_0_0_1_n_n_wf : DotDims.WF S16384x2048 S2048x4096 S16384x4096 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf
def dot_S16384x2048_S2048x4096_S16384x4096_1_0_0_1_n_n : DotDims S16384x2048 S2048x4096 S16384x4096 where
  lhsContracting := [1]
  rhsContracting := [0]
  lhsNonContracting := [0]
  rhsNonContracting := [1]
  lhsBatch := []
  rhsBatch := []
  wf := dot_S16384x2048_S2048x4096_S16384x4096_1_0_0_1_n_n_wf

class Facts : Prop extends Facts₀ where

variable [Facts]
-- ==== Proof.LibColumn.lean ====
/-
  A vector as a one-column matrix, read at an index. An array of `a` entries recast to `a` rows of one column holds at
  row `p` (whatever the column coordinate, which can only be 0) the operand's entry `p`: row-major order counts the same
  entries in the same order on both sides.
-/
import Idealize.ShloMosaic.Lib.Pipeline.Value
import Idealize.ShloMosaic.Lib.ValueLayout

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.LibLayout.lean ====
/-
  A keepdims column read at an index. An array with one column, broadcast along its unit axis to `b` columns,
  holds at `(p, c)` the operand's entry in row `p`: every column is a copy of the one column.
-/
import Idealize.ShloMosaic.Lib.Pipeline.Value
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibColumnVec.lean ====
import Idealize.ShloMosaic.Lib.ValueIdx
import Idealize.ShloMosaic.Lib.Pipeline.Value
import Idealize.ShloMosaic.Lib.ValueLayout

/-!
# A vector set as a column, a column read as a vector, one column cut out of a matrix

Four re-layings of `N` numbers, each read at an index written by its coordinates:

* a vector [N] laid out as a column [N, 1] (a `broadcast_in_dim` along axis 0): entry `(n, 0)` is entry `n`;
* a vector [N] laid out as a row [1, N] (a `broadcast_in_dim` along axis 1): entry `(0, n)` is entry `n`;
* a column [N, 1] recast to a vector [N]: entry `n` is entry `(n, 0)`;
* column `k` cut out of a matrix [N, C] as a column [N, 1]: entry `(n, 0)` is entry `(n, k)`.

Nothing here depends on what the entries are.
-/

namespace Cert.LibColumnVec

open Idealize.ShloMosaic Idealize.ShloMosaic.ValueIdx

variable {α : Type}

/-- A vector laid out as a column. -/
theorem columnOfVector_at {N : ℕ} (v : (⟨1, ![N]⟩ : Shape).Idx → α)
    (h : (⟨1, ![N]⟩ : Shape).BroadcastsInDim ⟨2, ![N, 1]⟩ (![0] : Fin 1 → Fin 2)) (n : Fin N) :
    broadcastInDim ⟨2, ![N, 1]⟩ (![0] : Fin 1 → Fin 2) h v (ix2 n 0) = v (ix1 n) :=
  broadcastInDim_apply _ h v (ix2 n 0) (ix1 n) (fun a => by
    match a with
    | ⟨0, _⟩ =>
      show n.val = if N = 1 then 0 else n.val
      by_cases hN : N = 1
      · rw [if_pos hN]; have := n.isLt; omega
      · rw [if_neg hN])

/-- A vector laid out as a row. -/
theorem rowOfVector_at {N : ℕ} (v : (⟨1, ![N]⟩ : Shape).Idx → α)
    (h : (⟨1, ![N]⟩ : Shape).BroadcastsInDim ⟨2, ![1, N]⟩ (![1] : Fin 1 → Fin 2)) (n : Fin N) :
    broadcastInDim ⟨2, ![1, N]⟩ (![1] : Fin 1 → Fin 2) h v (ix2 0 n) = v (ix1 n) :=
  broadcastInDim_apply _ h v (ix2 0 n) (ix1 n) (fun a => by
    match a with
    | ⟨0, _⟩ =>
      show n.val = if N = 1 then 0 else n.val
      by_cases hN : N = 1
      · rw [if_pos hN]; have := n.isLt; omega
      · rw [if_neg hN])

/-- A column recast to a vector: the same numbers in the same order. -/
theorem vectorOfColumn_at {N : ℕ} (A : (⟨2, ![N, 1]⟩ : Shape).Idx → α)
    (h : (⟨2, ![N, 1]⟩ : Shape).ShapeCasts ⟨1, ![N]⟩) (n : Fin N) :
    shapeCast ⟨1, ![N]⟩ A h (ix1 n) = A (ix2 n 0) :=
  shapeCast_apply A h (ix1 n) (ix2 n 0) (by
    rw [Shape.rowMajor_val_two, Shape.rowMajor_val_one]
    show n.val * 1 + 0 = n.val
    omega)

/-- Column `k` of a matrix, cut out as a column. -/
theorem columnOfMatrix_at {N C : ℕ} (k : ℕ) (A : (⟨2, ![N, C]⟩ : Shape).Idx → α)
    (h : (⟨2, ![N, C]⟩ : Shape).Slices ![0, k] ⟨2, ![N, 1]⟩) (n : Fin N) :
    extractStridedSlice ⟨2, ![N, 1]⟩ ![0, k] A h (ix2 n 0)
      = A (ix2 n ⟨k, by have := h.2 1; simpa using this⟩) :=
  slice2_axis1_apply k A h n 0 _ (by simp)

end Cert.LibColumnVec
-- ==== Proof.LibHostBroadcast.lean ====
/-
  Host `broadcast_in_dim` of small shapes read at an index built with `ix2`:
  a column [a,1] spread over the columns of [a,b], a row [1,b] spread over the rows of [a,b]
  (both with the identity dimension map ![0,1]), and a rank-0 scalar spread over any shape.
  Each is the general `broadcastInDim_apply` with the operand's index written out.
-/
import Idealize.ShloMosaic.Lib.ValueIdx
import Idealize.ShloMosaic.Lib.Pipeline.Value

namespace Cert.LibHostBroadcast

open Idealize.ShloMosaic Idealize.ShloMosaic.ValueIdx

variable {α : Type}

/-- A column [a,1] broadcast to [a,b] along the identity map, read at (p,c), is the column at (p,0). -/
theorem column_at {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun d => ?_
  match d with
  | ⟨0, _⟩ =>
    show p.val = if a = 1 then 0 else p.val
    split
    · have := p.isLt; omega
    · rfl
  | ⟨1, _⟩ => rfl

/-- A row [1,b] broadcast to [a,b] along the identity map, read at (p,c), is the row at (0,c). -/
theorem row_at {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 (0 : Fin 1) c) := by
  refine broadcastInDim_apply _ h v (ix2 p c) (ix2 (0 : Fin 1) c) fun d => ?_
  match d with
  | ⟨0, _⟩ => rfl
  | ⟨1, _⟩ =>
    show c.val = if b = 1 then 0 else c.val
    split
    · have := c.isLt; omega
    · rfl

/-- A rank-0 scalar broadcast to any shape, read anywhere, is the scalar. -/
theorem scalar_at {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun d => d.elim0

end Cert.LibHostBroadcast
-- ==== Proof.LibLayerNorm.lean ====
/-
  Layer normalisation over the last axis of a matrix, read at an entry, on the extended reals.

  For a row v of length n, a count c and an offset ε:
    mean c v        = (Σ_j v j) / c
    rstd c ε v      = rsqrt ((Σ_j (v j − mean)·(v j − mean)) / c + ε)
    normed c ε v j  = (v j − mean) · rstd
    layerNorm … j   = normed j · g j + b j
  The two spellings of the same computation are read at (p, j) as these row functions of row p:
  the vector form (a lane sum, a cast of the sums to a column, a division by a splat, a column
  broadcast, a row broadcast of the scale and shift vectors) and the host form (a reduce from an
  initial zero, broadcast_in_dim of the sums to a column, of a rank-0 constant, of the column and of
  the parameter vectors). Nothing is assumed finite: every step is a definitional reading or a
  re-indexing of a sum.
-/
import Idealize.ShloMosaic.Lib.ValueIdx
import Idealize.ShloMosaic.Lib.Pipeline.Value
import Idealize.ShloMosaic.Lib.ValueLayout
import Idealize.ShloMosaic.PureOps.Ideal.Laws
import proofs.«159429_j90177133346850_2_alg».proof.Proof.LibColumn
import proofs.«159429_j90177133346850_2_alg».proof.Proof.LibLayout
import proofs.«159429_j90177133346850_2_alg».proof.Proof.LibColumnVec
import proofs.«159429_j90177133346850_2_alg».proof.Proof.LibHostBroadcast

noncomputable section

open scoped BigOperators

namespace Cert.LibLayerNorm

open Idealize.ShloMosaic Idealize.ShloMosaic.ValueIdx

/-! ## The row functions -/

section Row
variable {n : ℕ}

/-- The mean of a row: its sum divided by the count. -/
def mean (c : EReal) (v : Fin n → EReal) : EReal := Ideal.div (∑ j, v j) c

/-- The reciprocal standard deviation: rsqrt of the mean squared deviation plus ε. -/
def rstd (c ε : EReal) (v : Fin n → EReal) : EReal :=
  Ideal.rsqrt (Ideal.div (∑ j, (v j - mean c v) * (v j - mean c v)) c + ε)

/-- The normalised row. -/
def normed (c ε : EReal) (v : Fin n → EReal) (j : Fin n) : EReal := (v j - mean c v) * rstd c ε v

/-- The normalised row scaled by g and shifted by b. -/
def layerNorm (c ε : EReal) (v g b : Fin n → EReal) (j : Fin n) : EReal := normed c ε v j * g j + b j

end Row

variable {R C : ℕ}

/-! ## The vector form -/

/-- A lane sum over the last axis from the zero pattern, read at row p, is the sum of row p. -/
theorem laneSum_at (v : FVec Ideal (⟨2, ![R, C]⟩ : Shape) .f32)
    (hred : (⟨2, ![R, C]⟩ : Shape).Reduces [(1 : Fin 2)] ⟨1, ![R]⟩) (hφ : FKind.Formats .f32)
    (hacc : (0x00000000#32 : BitVec 32) = FKind.add.neutral .f32 hφ) (p : Fin R) :
    multiReduction .add [(1 : Fin 2)] ⟨1, ![R]⟩ v 0x00000000#32 hred hφ hacc (ix1 p) = ∑ j : Fin C, v (ix2 p j) := by
  refine (Ideal.multiReduction_add_single v _ hred hφ hacc (ix1 p)).trans ?_
  refine Finset.sum_congr rfl fun k _ => congrArg v ?_
  funext a
  match a with
  | ⟨0, _⟩ => rfl
  | ⟨1, _⟩ => rfl

/-- The column of row means in the vector form: lane sums, cast to a column, divided by a splat. -/
abbrev meanColV (v : FVec Ideal (⟨2, ![R, C]⟩ : Shape) .f32) (cw : BitVec 32)
    (hred : (⟨2, ![R, C]⟩ : Shape).Reduces [(1 : Fin 2)] ⟨1, ![R]⟩) (hφ : FKind.Formats .f32)
    (hacc : (0x00000000#32 : BitVec 32) = FKind.add.neutral .f32 hφ)
    (hc : (⟨1, ![R]⟩ : Shape).ShapeCasts ⟨2, ![R, 1]⟩) : FVec Ideal (⟨2, ![R, 1]⟩ : Shape) .f32 :=
  divf (shapeCast ⟨2, ![R, 1]⟩ (multiReduction .add [(1 : Fin 2)] ⟨1, ![R]⟩ v 0x00000000#32 hred hφ hacc) hc)
    (broadcast ⟨2, ![R, 1]⟩ (Scalar.ofBits .f32 cw))

theorem meanColV_at (v : FVec Ideal (⟨2, ![R, C]⟩ : Shape) .f32) (cw : BitVec 32)
    (hred : (⟨2, ![R, C]⟩ : Shape).Reduces [(1 : Fin 2)] ⟨1, ![R]⟩) (hφ : FKind.Formats .f32)
    (hacc : (0x00000000#32 : BitVec 32) = FKind.add.neutral .f32 hφ)
    (hc : (⟨1, ![R]⟩ : Shape).ShapeCasts ⟨2, ![R, 1]⟩) (p : Fin R) (u : Fin 1) :
    meanColV v cw hred hφ hacc hc (ix2 p u) = mean (Ideal.ofBits .f32 cw) (fun j : Fin C => v (ix2 p j)) := by
  show Ideal.div (shapeCast ⟨2, ![R, 1]⟩ (multiReduction .add [(1 : Fin 2)] ⟨1, ![R]⟩ v 0x00000000#32 hred hφ hacc) hc (ix2 p u))
      (Ideal.ofBits .f32 cw) = _
  rw [shapeCast_a_a1_apply, laneSum_at]
  rfl

/-- The vector form of the normalised matrix read at (p, j). -/
theorem normedV_at (v : FVec Ideal (⟨2, ![R, C]⟩ : Shape) .f32) (cw εw : BitVec 32)
    (hred : (⟨2, ![R, C]⟩ : Shape).Reduces [(1 : Fin 2)] ⟨1, ![R]⟩) (hφ : FKind.Formats .f32)
    (hacc : (0x00000000#32 : BitVec 32) = FKind.add.neutral .f32 hφ)
    (hc : (⟨1, ![R]⟩ : Shape).ShapeCasts ⟨2, ![R, 1]⟩)
    (hb : (⟨2, ![R, 1]⟩ : Shape).Broadcasts ⟨2, ![R, C]⟩) (p : Fin R) (j : Fin C) :
    mulf (subf v (broadcastTo ⟨2, ![R, C]⟩ (meanColV v cw hred hφ hacc hc) hb))
      (broadcastTo ⟨2, ![R, C]⟩
        (rsqrt (addf
          (meanColV (mulf (subf v (broadcastTo ⟨2, ![R, C]⟩ (meanColV v cw hred hφ hacc hc) hb))
                          (subf v (broadcastTo ⟨2, ![R, C]⟩ (meanColV v cw hred hφ hacc hc) hb))) cw hred hφ hacc hc)
          (broadcast ⟨2, ![R, 1]⟩ (Scalar.ofBits .f32 εw)))) hb) (ix2 p j)
      = normed (Ideal.ofBits .f32 cw) (Ideal.ofBits .f32 εw) (fun j' : Fin C => v (ix2 p j')) j := by
  have hM : ∀ j' : Fin C, subf v (broadcastTo ⟨2, ![R, C]⟩ (meanColV v cw hred hφ hacc hc) hb) (ix2 p j')
      = v (ix2 p j') - mean (Ideal.ofBits .f32 cw) (fun j'' : Fin C => v (ix2 p j'')) := fun j' => by
    show v (ix2 p j') - broadcastTo ⟨2, ![R, C]⟩ (meanColV v cw hred hφ hacc hc) hb (ix2 p j') = _
    rw [broadcastTo_a1_ab_apply, meanColV_at]
  show subf v (broadcastTo ⟨2, ![R, C]⟩ (meanColV v cw hred hφ hacc hc) hb) (ix2 p j)
      * broadcastTo ⟨2, ![R, C]⟩ _ hb (ix2 p j) = _
  rw [hM, broadcastTo_a1_ab_apply]
  show _ * Ideal.rsqrt (meanColV _ cw hred hφ hacc hc (ix2 p (0 : Fin 1)) + Ideal.ofBits .f32 εw) = _
  rw [meanColV_at]
  unfold normed rstd
  refine congrArg (fun s => _ * Ideal.rsqrt (mean (Ideal.ofBits .f32 cw) s + Ideal.ofBits .f32 εw)) ?_
  funext j'
  show subf v _ (ix2 p j') * subf v _ (ix2 p j') = _
  rw [hM]

/-- A parameter vector laid out as a row and spread over the rows (vector form), read at (p, j). -/
theorem paramRowV_at {φ : FTy} (g : (⟨1, ![C]⟩ : Shape).Idx → Ideal φ)
    (hc : (⟨1, ![C]⟩ : Shape).ShapeCasts ⟨2, ![1, C]⟩) (hb : (⟨2, ![1, C]⟩ : Shape).Broadcasts ⟨2, ![R, C]⟩)
    (p : Fin R) (j : Fin C) :
    broadcastTo ⟨2, ![R, C]⟩ (shapeCast ⟨2, ![1, C]⟩ g hc) hb (ix2 p j) = g (ix1 j) := by
  rw [broadcastTo_1b_ab_apply, shapeCast_a_1a_apply]

/-! ## The host form -/

/-- The host's division and reciprocal square root read at an index. -/
theorem hostDivf_apply {s : Shape} {φ : FTy} (a b : FVec Ideal s φ) (i : s.Idx) : Host.divf a b i = Ideal.div (a i) (b i) := rfl
theorem hostRsqrt_apply {s : Shape} {φ : FTy} (a : FVec Ideal s φ) (i : s.Idx) : Host.rsqrt a i = Ideal.rsqrt (a i) := rfl

/-- A host sum over the last axis from a rank-0 zero, read at row p, is the sum of row p. -/
theorem hostSum_at (v : FVec Ideal (⟨2, ![R, C]⟩ : Shape) .f32)
    (hred' : (⟨2, ![R, C]⟩ : Shape).ReducesTo [(1 : Fin 2)] ⟨1, ![R]⟩)
    (hred : (⟨2, ![R, C]⟩ : Shape).Reduces [(1 : Fin 2)] ⟨1, ![R]⟩)
    (hu : 0 < (⟨0, ![]⟩ : Shape).numel) (p : Fin R) :
    Host.reduceAdd v (constant (⟨0, ![]⟩ : Shape) .f32 0x00000000#32) hred' hu (ix1 p) = ∑ j : Fin C, v (ix2 p j) := by
  show Ideal.hostReduceAdd hred' v (Ideal.ofBits .f32 0x00000000#32) (ix1 p) = _
  rw [Ideal.hostReduceAdd_single hred' hred, Ideal.ofBits_zero_f32, zero_add]
  refine Finset.sum_congr rfl fun k _ => congrArg v ?_
  funext a
  match a with
  | ⟨0, _⟩ => rfl
  | ⟨1, _⟩ => rfl

/-- The column of row means in the host form. -/
abbrev meanColH (v : FVec Ideal (⟨2, ![R, C]⟩ : Shape) .f32) (cw : BitVec 32)
    (hred' : (⟨2, ![R, C]⟩ : Shape).ReducesTo [(1 : Fin 2)] ⟨1, ![R]⟩) (hu : 0 < (⟨0, ![]⟩ : Shape).numel)
    (hB : (⟨1, ![R]⟩ : Shape).BroadcastsInDim ⟨2, ![R, 1]⟩ (![0] : Fin 1 → Fin 2))
    (hS : (⟨0, ![]⟩ : Shape).BroadcastsInDim ⟨2, ![R, 1]⟩ (![] : Fin 0 → Fin 2)) : FVec Ideal (⟨2, ![R, 1]⟩ : Shape) .f32 :=
  Host.divf (broadcastInDim ⟨2, ![R, 1]⟩ (![0] : Fin 1 → Fin 2) hB (Host.reduceAdd v (constant (⟨0, ![]⟩ : Shape) .f32 0x00000000#32) hred' hu))
    (broadcastInDim ⟨2, ![R, 1]⟩ (![] : Fin 0 → Fin 2) hS (constant (⟨0, ![]⟩ : Shape) .f32 cw))

theorem meanColH_at (v : FVec Ideal (⟨2, ![R, C]⟩ : Shape) .f32) (cw : BitVec 32)
    (hred' : (⟨2, ![R, C]⟩ : Shape).ReducesTo [(1 : Fin 2)] ⟨1, ![R]⟩)
    (hred : (⟨2, ![R, C]⟩ : Shape).Reduces [(1 : Fin 2)] ⟨1, ![R]⟩) (hu : 0 < (⟨0, ![]⟩ : Shape).numel)
    (hB : (⟨1, ![R]⟩ : Shape).BroadcastsInDim ⟨2, ![R, 1]⟩ (![0] : Fin 1 → Fin 2))
    (hS : (⟨0, ![]⟩ : Shape).BroadcastsInDim ⟨2, ![R, 1]⟩ (![] : Fin 0 → Fin 2)) (p : Fin R) :
    meanColH v cw hred' hu hB hS (ix2 p (0 : Fin 1)) = mean (Ideal.ofBits .f32 cw) (fun j : Fin C => v (ix2 p j)) := by
  unfold meanColH
  rw [hostDivf_apply, Cert.LibColumnVec.columnOfVector_at, Cert.LibHostBroadcast.scalar_at, hostSum_at v hred' hred hu,
    constant_apply]
  rfl

/-- The host form of the normalised matrix read at (p, j). -/
theorem normedH_at (v : FVec Ideal (⟨2, ![R, C]⟩ : Shape) .f32) (cw εw : BitVec 32)
    (hred' : (⟨2, ![R, C]⟩ : Shape).ReducesTo [(1 : Fin 2)] ⟨1, ![R]⟩)
    (hred : (⟨2, ![R, C]⟩ : Shape).Reduces [(1 : Fin 2)] ⟨1, ![R]⟩) (hu : 0 < (⟨0, ![]⟩ : Shape).numel)
    (hB : (⟨1, ![R]⟩ : Shape).BroadcastsInDim ⟨2, ![R, 1]⟩ (![0] : Fin 1 → Fin 2))
    (hS : (⟨0, ![]⟩ : Shape).BroadcastsInDim ⟨2, ![R, 1]⟩ (![] : Fin 0 → Fin 2))
    (hA : (⟨2, ![R, 1]⟩ : Shape).BroadcastsInDim ⟨2, ![R, C]⟩ (![0, 1] : Fin 2 → Fin 2))
    (sq : FVec Ideal (⟨2, ![R, C]⟩ : Shape) .f32)
    (hsq : sq = subf v (broadcastInDim ⟨2, ![R, C]⟩ (![0, 1] : Fin 2 → Fin 2) hA (meanColH v cw hred' hu hB hS)))
    (p : Fin R) (j : Fin C) :
    mulf (subf v (broadcastInDim ⟨2, ![R, C]⟩ (![0, 1] : Fin 2 → Fin 2) hA (meanColH v cw hred' hu hB hS)))
      (broadcastInDim ⟨2, ![R, C]⟩ (![0, 1] : Fin 2 → Fin 2) hA
        (Host.rsqrt (addf (meanColH (mulf sq sq) cw hred' hu hB hS)
          (broadcastInDim ⟨2, ![R, 1]⟩ (![] : Fin 0 → Fin 2) hS (constant (⟨0, ![]⟩ : Shape) .f32 εw))))) (ix2 p j)
      = normed (Ideal.ofBits .f32 cw) (Ideal.ofBits .f32 εw) (fun j' : Fin C => v (ix2 p j')) j := by
  subst hsq
  have hM : ∀ j' : Fin C, subf v (broadcastInDim ⟨2, ![R, C]⟩ (![0, 1] : Fin 2 → Fin 2) hA (meanColH v cw hred' hu hB hS)) (ix2 p j')
      = v (ix2 p j') - mean (Ideal.ofBits .f32 cw) (fun j'' : Fin C => v (ix2 p j'')) := fun j' => by
    rw [subf_apply, Cert.LibHostBroadcast.column_at, meanColH_at v cw hred' hred]
  rw [mulf_apply, hM, Cert.LibHostBroadcast.column_at, hostRsqrt_apply, addf_apply, meanColH_at _ cw hred' hred,
    Cert.LibHostBroadcast.scalar_at, constant_apply]
  unfold normed rstd
  refine congrArg (fun s => _ * Ideal.rsqrt (mean (Ideal.ofBits .f32 cw) s + Ideal.ofBits .f32 εw)) ?_
  funext j'
  rw [mulf_apply, hM]

/-- A parameter vector laid out as a row and spread over the rows (host form), read at (p, j). -/
theorem paramRowH_at {φ : FTy} (g : (⟨1, ![C]⟩ : Shape).Idx → Ideal φ)
    (hE : (⟨1, ![C]⟩ : Shape).BroadcastsInDim ⟨2, ![1, C]⟩ (![1] : Fin 1 → Fin 2))
    (hD : (⟨2, ![1, C]⟩ : Shape).BroadcastsInDim ⟨2, ![R, C]⟩ (![0, 1] : Fin 2 → Fin 2)) (p : Fin R) (j : Fin C) :
    broadcastInDim ⟨2, ![R, C]⟩ (![0, 1] : Fin 2 → Fin 2) hD (broadcastInDim ⟨2, ![1, C]⟩ (![1] : Fin 1 → Fin 2) hE g) (ix2 p j)
      = g (ix1 j) := by
  rw [Cert.LibHostBroadcast.row_at, Cert.LibColumnVec.rowOfVector_at]

end Cert.LibLayerNorm
-- ==== Proof.LibBlockSum.lean ====
/-
  Finite sums cut into blocks, over any additive commutative monoid. A sum over the first `n · q` naturals is the sum
  over `n` consecutive blocks of `q` terms each: index `k` is `i · q + j` for exactly one block `i < n` and one place
  `j < q` in it. A sum over the first `m + n` naturals is the sum of the first `m` terms plus the sum of the `n`
  after them. At 4096 = 4 · 1024 this gives the four quarter sums, added from the left, with or without a zero in front.
-/
import Mathlib.Algebra.BigOperators.Fin
import Mathlib.Data.Fintype.BigOperators
import Mathlib.Logic.Equiv.Fin.Basic

open scoped BigOperators

namespace LibBlockSum

variable {M : Type*} [AddCommMonoid M]

/-- Place `j` of block `i` is below `n · q`. -/
theorem block_lt {n q : Nat} (i : Fin n) (j : Fin q) : i.val * q + j.val < n * q :=
  calc i.val * q + j.val < i.val * q + q := Nat.add_lt_add_left j.isLt _
    _ = (i.val + 1) * q := (Nat.succ_mul _ _).symm
    _ ≤ n * q := Nat.mul_le_mul_right q i.isLt

/-- A sum of `n · q` terms is the sum over `n` blocks of the sums of each block's `q` terms. -/
theorem sum_blocks (n q : Nat) (f : Fin (n * q) → M) :
    ∑ k, f k = ∑ i : Fin n, ∑ j : Fin q, f ⟨i.val * q + j.val, block_lt i j⟩ := by
  rw [← Equiv.sum_comp finProdFinEquiv f, Fintype.sum_prod_type]
  refine Finset.sum_congr rfl fun i _ => Finset.sum_congr rfl fun j _ => congrArg f (Fin.ext ?_)
  show j.val + q * i.val = i.val * q + j.val
  rw [Nat.mul_comm, Nat.add_comm]

/-- A sum of `m + n` terms is the sum of the first `m` plus the sum of the last `n`. -/
theorem sum_split (m n : Nat) (f : Fin (m + n) → M) :
    ∑ k, f k = ∑ j : Fin m, f ⟨j.val, by omega⟩ + ∑ j : Fin n, f ⟨m + j.val, by omega⟩ :=
  Fin.sum_univ_add f

/-- A sum of 4096 terms is its four quarter sums, added from the left. -/
theorem sum_four_1024' (f : Fin 4096 → M) :
    ∑ k, f k = ((∑ j : Fin 1024, f ⟨j.val, by omega⟩ + ∑ j : Fin 1024, f ⟨1024 + j.val, by omega⟩)
      + ∑ j : Fin 1024, f ⟨2048 + j.val, by omega⟩) + ∑ j : Fin 1024, f ⟨3072 + j.val, by omega⟩ := by
  have h1 : ∑ k, f k = ∑ j : Fin 3072, f ⟨j.val, by omega⟩ + ∑ j : Fin 1024, f ⟨3072 + j.val, by omega⟩ :=
    sum_split 3072 1024 f
  have h2 : ∑ j : Fin 3072, f ⟨j.val, by omega⟩
      = ∑ j : Fin 2048, f ⟨j.val, by omega⟩ + ∑ j : Fin 1024, f ⟨2048 + j.val, by omega⟩ :=
    sum_split 2048 1024 fun k : Fin 3072 => f ⟨k.val, by omega⟩
  have h3 : ∑ j : Fin 2048, f ⟨j.val, by omega⟩
      = ∑ j : Fin 1024, f ⟨j.val, by omega⟩ + ∑ j : Fin 1024, f ⟨1024 + j.val, by omega⟩ :=
    sum_split 1024 1024 fun k : Fin 2048 => f ⟨k.val, by omega⟩
  rw [h1, h2, h3]

/-- The same with a zero in front, as an accumulation that starts from zero adds them. -/
theorem sum_four_1024 (f : Fin 4096 → M) :
    ∑ k, f k = (((0 + ∑ j : Fin 1024, f ⟨j.val, by omega⟩) + ∑ j : Fin 1024, f ⟨1024 + j.val, by omega⟩)
      + ∑ j : Fin 1024, f ⟨2048 + j.val, by omega⟩) + ∑ j : Fin 1024, f ⟨3072 + j.val, by omega⟩ := by
  rw [zero_add]
  exact sum_four_1024' f

end LibBlockSum
-- ==== Proof.GruRow.lean ====
/-
  The layer-normalised gated recurrent cell, one row at a time, on the extended reals.

  For a batch row with input row x (1024 entries) and the two halves s0, s1 of the previous state
  (1024 entries each):
    I j  = Σ_k x k · WiT k j                           (4096 pre-activations from the input)
    S j  = Σ_k s0 k · W0 k j + Σ_k s1 k · W1 k j        (4096 pre-activations from the state)
    ig   = layerNorm(I; gi, bi),  sg = layerNorm(S; gs, bs)       over the 4096 entries
    r    = σ(ig[q] + sg[q]),   i = σ(ig[1024+q] + sg[1024+q]),   l = σ(ig[3072+q] + sg[3072+q])
    n    = tanh((ig[2048+q] + sg[2048+q]) − r · sg[2048+q])
    h q  = n + i · ((l · s0 q + (1 − l) · s1 q) − n)
    out  = layerNorm(h; gh, bh)                                  over the 1024 entries
  The one law of the file: a contraction over the 2048 entries of the joined state [s0 | s1] is
  the sum of the two contractions over 1024 entries — a finite sum split in two, which holds in
  any additive commutative monoid, so nothing has to be finite.
-/
import Idealize.ShloMosaic.Lib.ValueIdx
import Idealize.ShloMosaic.PureOps.Ideal
import proofs.«159429_j90177133346850_2_alg».proof.Proof.LibLayerNorm
import proofs.«159429_j90177133346850_2_alg».proof.Proof.LibBlockSum

noncomputable section

open scoped BigOperators

namespace Cert.GruRow

open Idealize.ShloMosaic Idealize.ShloMosaic.ValueIdx Cert.LibLayerNorm

/-- The f32 patterns of the counts 4096 and 1024, of ε = f32(1e-5) and of 1, read as extended reals. -/
abbrev c4096 : EReal := Ideal.ofBits .f32 0x45800000#32
abbrev c1024 : EReal := Ideal.ofBits .f32 0x44800000#32
abbrev eps : EReal := Ideal.ofBits .f32 0x3727C5AC#32
abbrev one : EReal := Ideal.ofBits .f32 0x3F800000#32

/-- Entry o + q of a row of 4096, for q below 1024: the q-th entry of the quarter that starts at o. -/
abbrev col (o : ℕ) (ho : o + 1024 ≤ 4096) (q : Fin 1024) : Fin 4096 := ⟨o + q.val, by have := q.isLt; omega⟩

/-- A gate: the logistic function of the two normalised pre-activations' sum, in the quarter at o. -/
def gate (ig sg : Fin 4096 → EReal) (o : ℕ) (ho : o + 1024 ≤ 4096) (q : Fin 1024) : EReal :=
  Ideal.logistic (ig (col o ho q) + sg (col o ho q))

/-- The candidate state: tanh of the third quarter's sum less the reset gate times the state's part. -/
def cand (ig sg : Fin 4096 → EReal) (q : Fin 1024) : EReal :=
  Ideal.tanh ((ig (col 2048 (by norm_num) q) + sg (col 2048 (by norm_num) q))
    - gate ig sg 0 (by norm_num) q * sg (col 2048 (by norm_num) q))

/-- The new state before its normalisation. -/
def hidden (ig sg : Fin 4096 → EReal) (s0 s1 : Fin 1024 → EReal) (q : Fin 1024) : EReal :=
  cand ig sg q + gate ig sg 1024 (by norm_num) q
    * ((gate ig sg 3072 (by norm_num) q * s0 q + (one - gate ig sg 3072 (by norm_num) q) * s1 q) - cand ig sg q)

/-- The output row from the two rows of pre-activations. -/
def outRow (I S gi bi gs bs : Fin 4096 → EReal) (s0 s1 gh bh : Fin 1024 → EReal) : Fin 1024 → EReal :=
  layerNorm c1024 eps (hidden (layerNorm c4096 eps I gi bi) (layerNorm c4096 eps S gs bs) s0 s1) gh bh

/-- The input's pre-activations. -/
def preI (x : Fin 1024 → EReal) (wT : Fin 1024 → Fin 4096 → EReal) (j : Fin 4096) : EReal := ∑ k, x k * wT k j

/-- The state's pre-activations, as two contractions. -/
def preS (s0 s1 : Fin 1024 → EReal) (w0 w1 : Fin 1024 → Fin 4096 → EReal) (j : Fin 4096) : EReal :=
  ∑ k, s0 k * w0 k j + ∑ k, s1 k * w1 k j

/-- The first and the second half of the 2048 joined state entries. -/
abbrev lo (k : Fin 1024) : Fin 2048 := ⟨k.val, by have := k.isLt; omega⟩
abbrev hi (k : Fin 1024) : Fin 2048 := ⟨1024 + k.val, by have := k.isLt; omega⟩

/-- A contraction over the joined state is the sum of the two halves' contractions. -/
theorem sum_joined (f : Fin 2048 → EReal) : ∑ k, f k = ∑ k : Fin 1024, f (lo k) + ∑ k : Fin 1024, f (hi k) :=
  LibBlockSum.sum_split 1024 1024 f

/-- The whole cell as one function of the argument arrays: entry (p, q) of the result. -/
def entry (x s0 s1 : (⟨2, ![16384, 1024]⟩ : Shape).Idx → EReal) (wi : (⟨2, ![4096, 1024]⟩ : Shape).Idx → EReal)
    (ws : (⟨2, ![4096, 2048]⟩ : Shape).Idx → EReal) (gi bi gs bs : (⟨1, ![4096]⟩ : Shape).Idx → EReal)
    (gh bh : (⟨1, ![1024]⟩ : Shape).Idx → EReal) (p : Fin 16384) (q : Fin 1024) : EReal :=
  outRow (preI (fun k => x (ix2 p k)) (fun k j => wi (ix2 j k)))
    (preS (fun k => s0 (ix2 p k)) (fun k => s1 (ix2 p k)) (fun k j => ws (ix2 j (lo k))) (fun k j => ws (ix2 j (hi k))))
    (fun j => gi (ix1 j)) (fun j => bi (ix1 j)) (fun j => gs (ix1 j)) (fun j => bs (ix1 j))
    (fun k => s0 (ix2 p k)) (fun k => s1 (ix2 p k)) (fun k => gh (ix1 k)) (fun k => bh (ix1 k)) q

/-- The result array. -/
def cell (x s0 s1 : (⟨2, ![16384, 1024]⟩ : Shape).Idx → EReal) (wi : (⟨2, ![4096, 1024]⟩ : Shape).Idx → EReal)
    (ws : (⟨2, ![4096, 2048]⟩ : Shape).Idx → EReal) (gi bi gs bs : (⟨1, ![4096]⟩ : Shape).Idx → EReal)
    (gh bh : (⟨1, ![1024]⟩ : Shape).Idx → EReal) : (⟨2, ![16384, 1024]⟩ : Shape).Idx → EReal :=
  fun i => entry x s0 s1 wi ws gi bi gs bs gh bh (i 0) (i 1)

end Cert.GruRow
-- ==== Proof.LibProductIx.lean ====
/-
  A matrix product read at an entry, with the operand indices written by their coordinates.

  Two arrangements of dimension numbers, no batch axis in either:
  * [A, K] × [K, B] → [A, B], contracting the left factor's axis 1 with the right factor's axis 0:
    the sum over the contraction index at (p, q) is Σ_{k<K} l(p, k) · r(k, q);
  * [A, S, K] × [B, K] → [A, S, B], contracting the left factor's last axis with the right factor's axis 1 (the
    right factor used by rows: x · Wᵀ on every row of a stack of rows): the sum at (a, s, b) is
    Σ_{k<K} l(a, s, k) · r(b, k).
  So a product into a zero accumulator or a host dot_general is that sum, and reads one row of each factor.
  General: nothing here depends on a particular program. An instance supplies the kept coordinates (`hl0`, `hr1`, …: each is
  `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.LibProductIx

open Idealize.ShloMosaic Idealize.ShloMosaic.ValueIdx

/-- [A, K] × [K, B]: the sum over the contraction index at (p, q) is Σ_k l(p, k) · r(k, q). -/
theorem sum_rows_cols {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k :=
    funext fun a => Fin.ext (by
      match a with
      | ⟨0, _⟩ => exact hl0 (ix2 p q) _
      | ⟨1, _⟩ => exact (d.lhsIdx_val_of_single hlc (ix2 p q) _).trans hk)
  have er : d.rhsIdx (ix2 p q) ((contrEquiv1 d K hr hs).symm k) = ix2 k q :=
    funext fun a => Fin.ext (by
      match a with
      | ⟨0, _⟩ => exact (d.rhsIdx_val_of_single hrc (ix2 p q) _).trans hk
      | ⟨1, _⟩ => exact hr1 (ix2 p q) _)
  rw [el, er]

/-- [A, S, K] × [B, K]: the sum over the contraction index at (a, s, b) is Σ_k l(a, s, k) · r(b, k). -/
theorem sum_stack_rows {A S B K : Nat} {φ₁ φ₂ : FTy}
    (d : DotDims (⟨3, ![A, S, K]⟩ : Shape) (⟨2, ![B, K]⟩ : Shape) (⟨3, ![A, S, B]⟩ : Shape))
    (hr : d.contr.rank = 1) (hs : d.contr.size ⟨0, by omega⟩ = K)
    (hlc : d.lhsContracting = [(2 : Fin 3)]) (hrc : d.rhsContracting = [(1 : Fin 2)])
    (hl0 : ∀ (j : (⟨3, ![A, S, B]⟩ : Shape).Idx) (q : d.contr.Idx), (d.lhsIdx j q 0).val = (j 0).val)
    (hl1 : ∀ (j : (⟨3, ![A, S, B]⟩ : Shape).Idx) (q : d.contr.Idx), (d.lhsIdx j q 1).val = (j 1).val)
    (hr0 : ∀ (j : (⟨3, ![A, S, B]⟩ : Shape).Idx) (q : d.contr.Idx), (d.rhsIdx j q 0).val = (j 2).val)
    (l : FVec Ideal (⟨3, ![A, S, K]⟩ : Shape) φ₁) (r : FVec Ideal (⟨2, ![B, K]⟩ : Shape) φ₂) (a : Fin A) (s : Fin S) (b : Fin B) :
    ∑ c : d.contr.Idx, l (d.lhsIdx (ix3 a s b) c) * r (d.rhsIdx (ix3 a s b) c) = ∑ k : Fin K, l (ix3 a s k) * r (ix2 b k) := by
  rw [← Equiv.sum_comp (contrEquiv1 d K hr hs).symm]
  refine Finset.sum_congr rfl fun k _ => ?_
  have hk := contrEquiv1_symm_val d K hr hs k
  have el : d.lhsIdx (ix3 a s b) ((contrEquiv1 d K hr hs).symm k) = ix3 a s k :=
    funext fun c => Fin.ext (by
      match c with
      | ⟨0, _⟩ => exact hl0 (ix3 a s b) _
      | ⟨1, _⟩ => exact hl1 (ix3 a s b) _
      | ⟨2, _⟩ => exact (d.lhsIdx_val_of_single hlc (ix3 a s b) _).trans hk)
  have er : d.rhsIdx (ix3 a s b) ((contrEquiv1 d K hr hs).symm k) = ix2 b k :=
    funext fun c => Fin.ext (by
      match c with
      | ⟨0, _⟩ => exact hr0 (ix3 a s b) _
      | ⟨1, _⟩ => exact (d.rhsIdx_val_of_single hrc (ix3 a s b) _).trans hk)
  rw [el, er]

end Cert.LibProductIx

end
-- ==== Proof.LibPlainDot.lean ====
/-
  A product of two matrices whose dimension numbers are the plain ones — no batch axis, the left factor's axis 1
  contracted with the right factor's axis 0, the kept axes the left factor's rows and the right factor's columns —
  read at an entry (p, q): into the zero accumulator it is Σ_k l(p,k) · r(k,q). The two facts a reading needs about
  the kept coordinates (the left factor is read in row p, the right factor in column q) are proved here once from the
  dimension numbers' lists, for any record with those lists.
  General: nothing here depends on a particular program.
-/
import proofs.«159429_j90177133346850_2_alg».proof.Proof.LibProductIx

noncomputable section

open scoped BigOperators

namespace Cert.LibPlainDot

open Idealize.ShloMosaic Idealize.ShloMosaic.ValueIdx

variable {A B K : Nat}

/-- The left factor is read in the row of the result's entry. -/
theorem lhs_row (d : DotDims (⟨2, ![A, K]⟩ : Shape) (⟨2, ![K, B]⟩ : Shape) (⟨2, ![A, B]⟩ : Shape))
    (hlb : d.lhsBatch = []) (hln : d.lhsNonContracting = [(0 : Fin 2)])
    (j : (⟨2, ![A, B]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln])

/-- The right factor is read in the column of the result's entry. -/
theorem rhs_col (d : DotDims (⟨2, ![A, K]⟩ : Shape) (⟨2, ![K, B]⟩ : Shape) (⟨2, ![A, B]⟩ : Shape))
    (hlb : d.lhsBatch = []) (hln : d.lhsNonContracting = [(0 : Fin 2)])
    (hrb : d.rhsBatch = []) (hrn : d.rhsNonContracting = [(1 : Fin 2)])
    (j : (⟨2, ![A, B]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln, hrn])

/-- The contraction sum of a plain product at (p, q). -/
theorem sum_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) :=
  Cert.LibProductIx.sum_rows_cols d hr hs hlc hrc (lhs_row d hlb hln) (rhs_col d hlb hln hrb hrn) l r p q

/-- A plain product into the zero accumulator, at (p, q). -/
theorem matmul_zero_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (⟨2, ![A, B]⟩ : Shape) .f32 0x00000000#32) (ix2 p q)
      = ∑ k : Fin K, l (ix2 p k) * r (ix2 k q) := by
  rw [Ideal.matmul_constant_zero_apply]
  exact sum_at d hr hs hlc hrc hlb hln hrb hrn l r p q

/-- A host product with the plain dimension numbers, at (p, q). -/
theorem dotGeneral_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision) (sched : HostSchedule)
    (l : FVec Ideal (⟨2, ![A, K]⟩ : Shape) φ₁) (r : FVec Ideal (⟨2, ![K, B]⟩ : Shape) φ₂) (p : Fin A) (q : Fin B) :
    FloatOps.dotGeneral d prec sched l r (ix2 p q) = ∑ k : Fin K, l (ix2 p k) * r (ix2 k q) := by
  rw [Ideal.dotGeneral_apply]
  exact sum_at d hr hs hlc hrc hlb hln hrb hrn l r p q

end Cert.LibPlainDot

end
-- ==== Proof.KernelRow.lean ====
/-
  The kernel's body, read at an entry of its output block.

  The body's stored value is a tree of named terms: the state's pre-activations (two products into
  zero accumulators, added), the input's pre-activations normalised over their 4096 entries, the
  two scaled-and-shifted normalisations, the three gates and the candidate read through quarter
  slices, and the final normalisation over the 1024 entries. Each is read here at (p, ·) as the
  row function of GruRow over row p of the loaded blocks, for arbitrary vectors of the loads'
  shapes; composed, the stored value at (p, q) is GruRow.outRow of row p.
-/
import Idealize.ShloMosaic.Lib.ValueIdx
import Idealize.ShloMosaic.Lib.Pipeline.Value
import Idealize.ShloMosaic.Lib.ValueLayout
import Idealize.ShloMosaic.PureOps.Ideal.Laws
import proofs.«159429_j90177133346850_2_alg».proof.Proof.Gen.KernelIdeal.Skeleton
import proofs.«159429_j90177133346850_2_alg».proof.Proof.LibLayerNorm
import proofs.«159429_j90177133346850_2_alg».proof.Proof.LibPlainDot
import proofs.«159429_j90177133346850_2_alg».proof.Proof.GruRow

noncomputable section

open scoped BigOperators

namespace Cert.KernelRow

open Idealize.ShloMosaic Idealize.ShloMosaic.ValueIdx Cert.LibLayerNorm Cert.GruRow
open Cert.KernelIdeal Cert.KernelIdeal.Gen

/-- The logistic function and the hyperbolic tangent applied entry by entry, read at an index. -/
theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-- A product [256,1024]×[1024,4096] into the zero accumulator, read at (p, j): Σ_k l(p,k)·r(k,j). -/
theorem product_at {φ₁ φ₂ : FTy} (l : FVec Ideal S256x1024 φ₁) (r : FVec Ideal S1024x4096 φ₂) (p : Fin 256) (j : Fin 4096) :
    matmul dot_S256x1024_S1024x4096_S256x4096_1_0_0_1_n_n none l r (constant S256x4096 .f32 0x00000000#32) (ix2 p j)
      = ∑ k : Fin 1024, l (ix2 p k) * r (ix2 k j) :=
  Cert.LibPlainDot.matmul_zero_at dot_S256x1024_S1024x4096_S256x4096_1_0_0_1_n_n rfl rfl rfl rfl rfl rfl rfl rfl none l r p j

/-- The state's pre-activations: the two halves' products, added. -/
theorem pay2_at (s0 s1 : Vec Ideal S256x1024 .f32) (w0 w1 : Vec Ideal S1024x4096 .bf16) (p : Fin 256) (j : Fin 4096) :
    k0_pay2 s0 s1 w0 w1 (ix2 p j)
      = preS (fun k => s0 (ix2 p k)) (fun k => s1 (ix2 p k)) (fun k j => w0 (ix2 k j)) (fun k j => w1 (ix2 k j)) j := by
  unfold k0_pay2 preS
  dsimp only
  rw [addf_apply, product_at, product_at, shapeCast_self, shapeCast_self]
  rfl

/-- The input's pre-activations, normalised over the 4096 entries of the row. -/
theorem pay3_at (x : Vec Ideal S256x1024 .f32) (wt : Vec Ideal S1024x4096 .bf16) (p : Fin 256) (j : Fin 4096) :
    k0_pay3 x wt (ix2 p j) = normed c4096 eps (preI (fun k => x (ix2 p k)) (fun k j => wt (ix2 k j))) j := by
  unfold k0_pay3
  refine (normedV_at _ 0x45800000#32 0x3727C5AC#32 _ _ _ _ _ p j).trans ?_
  refine congrArg (fun s => normed c4096 eps s j) (funext fun j' => ?_)
  rw [product_at, shapeCast_self]
  rfl

/-- The input's gates before the logistic: the normalised pre-activations scaled and shifted. -/
theorem pay5_at (bi gi : Vec Ideal S4096 .f32) (nx : FVec Ideal S256x4096 .f32) (p : Fin 256) (j : Fin 4096) :
    k0_pay5 bi nx (k0_pay4 gi) (ix2 p j) = nx (ix2 p j) * gi (ix1 j) + bi (ix1 j) := by
  unfold k0_pay5 k0_pay4
  dsimp only
  rw [addf_apply, mulf_apply, paramRowV_at, paramRowV_at]

/-- The state's gates before the logistic: layer normalisation of the state's pre-activations. -/
theorem pay6_at (S : FVec Ideal S256x4096 .f32) (gs bs : Vec Ideal S4096 .f32) (p : Fin 256) (j : Fin 4096) :
    k0_pay6 S gs bs (ix2 p j)
      = layerNorm c4096 eps (fun j' => S (ix2 p j')) (fun j' => gs (ix1 j')) (fun j' => bs (ix1 j')) j := by
  unfold k0_pay6 layerNorm
  dsimp only
  rw [addf_apply, mulf_apply, paramRowV_at, paramRowV_at]
  exact congrArg (fun a => a * gs (ix1 j) + bs (ix1 j)) (normedV_at S 0x45800000#32 0x3727C5AC#32 _ _ _ _ _ p j)

section Gates
variable (S : FVec Ideal S256x4096 .f32) (bi : Vec Ideal S4096 .f32) (nx : FVec Ideal S256x4096 .f32)
  (gi : Vec Ideal S4096 .f32) (gs bs : Vec Ideal S4096 .f32) (p : Fin 256) (q : Fin 1024)

/-- The input gate (second quarter). -/
theorem pay7_at :
    k0_pay7 S bi nx (k0_pay4 gi) gs bs (ix2 p q)
      = gate (fun j => k0_pay5 bi nx (k0_pay4 gi) (ix2 p j)) (fun j => k0_pay6 S gs bs (ix2 p j)) 1024 (by norm_num) q := by
  unfold k0_pay7 gate
  dsimp only
  rw [logistic_apply, addf_apply,
    slice2_axis1_apply 1024 _ _ p q (col 1024 (by norm_num) q) rfl,
    slice2_axis1_apply 1024 _ _ p q (col 1024 (by norm_num) q) rfl]

/-- The candidate state (first quarter for the reset gate, third for the candidate). -/
theorem pay8_at :
    k0_pay8 S bi nx (k0_pay4 gi) gs bs (ix2 p q)
      = cand (fun j => k0_pay5 bi nx (k0_pay4 gi) (ix2 p j)) (fun j => k0_pay6 S gs bs (ix2 p j)) q := by
  unfold k0_pay8 cand gate
  dsimp only
  rw [tanh_apply, subf_apply, addf_apply, mulf_apply, logistic_apply, addf_apply,
    slice2_axis1_apply 2048 _ _ p q (col 2048 (by norm_num) q) rfl,
    slice2_axis1_apply 2048 _ _ p q (col 2048 (by norm_num) q) rfl,
    slice2_axis1_apply 0 _ _ p q (col 0 (by norm_num) q) rfl,
    slice2_axis1_apply 0 _ _ p q (col 0 (by norm_num) q) rfl]

/-- The update gate (fourth quarter). -/
theorem pay9_at :
    k0_pay9 S bi nx (k0_pay4 gi) gs bs (ix2 p q)
      = gate (fun j => k0_pay5 bi nx (k0_pay4 gi) (ix2 p j)) (fun j => k0_pay6 S gs bs (ix2 p j)) 3072 (by norm_num) q := by
  unfold k0_pay9 gate
  dsimp only
  rw [logistic_apply, addf_apply,
    slice2_axis1_apply 3072 _ _ p q (col 3072 (by norm_num) q) rfl,
    slice2_axis1_apply 3072 _ _ p q (col 3072 (by norm_num) q) rfl]

/-- The update gate times the first half of the previous state. -/
theorem pay10_at (s0 : Vec Ideal S256x1024 .f32) :
    k0_pay10 s0 S bi nx (k0_pay4 gi) gs bs (ix2 p q)
      = gate (fun j => k0_pay5 bi nx (k0_pay4 gi) (ix2 p j)) (fun j => k0_pay6 S gs bs (ix2 p j)) 3072 (by norm_num) q
        * s0 (ix2 p q) := by
  unfold k0_pay10
  rw [mulf_apply, pay9_at]

/-- One minus the update gate. -/
theorem pay11_at :
    k0_pay11 S bi nx (k0_pay4 gi) gs bs (ix2 p q)
      = one - gate (fun j => k0_pay5 bi nx (k0_pay4 gi) (ix2 p j)) (fun j => k0_pay6 S gs bs (ix2 p j)) 3072 (by norm_num) q := by
  unfold k0_pay11
  rw [subf_apply, pay9_at]
  rfl

end Gates

/-- The stored value: the new state, normalised over its 1024 entries. -/
theorem pay1_at (s1 : Vec Ideal S256x1024 .f32) (ig nn ls0 oml : FVec Ideal S256x1024 .f32) (gh bh : Vec Ideal S1024 .f32)
    (p : Fin 256) (q : Fin 1024) :
    k0_pay1 s1 ig nn ls0 oml gh bh (ix2 p q)
      = layerNorm c1024 eps
          (fun q' => nn (ix2 p q') + ig (ix2 p q') * ((ls0 (ix2 p q') + oml (ix2 p q') * s1 (ix2 p q')) - nn (ix2 p q')))
          (fun k => gh (ix1 k)) (fun k => bh (ix1 k)) q := by
  unfold k0_pay1 layerNorm
  dsimp only
  rw [addf_apply, mulf_apply, paramRowV_at, paramRowV_at]
  exact congrArg (fun a => a * gh (ix1 q) + bh (ix1 q)) (normedV_at _ 0x44800000#32 0x3727C5AC#32 _ _ _ _ _ p q)

/-- The body's stored value at (p, q) is the cell's output row of row p of the loaded blocks. -/
theorem payload_at (x s0 s1 : Vec Ideal S256x1024 .f32) (wt w0 w1 : Vec Ideal S1024x4096 .bf16)
    (gi bi gs bs : Vec Ideal S4096 .f32) (gh bh : Vec Ideal S1024 .f32) (p : Fin 256) (q : Fin 1024) :
    k0_pay1 s1 (k0_pay7 (k0_pay2 s0 s1 w0 w1) bi (k0_pay3 x wt) (k0_pay4 gi) gs bs)
        (k0_pay8 (k0_pay2 s0 s1 w0 w1) bi (k0_pay3 x wt) (k0_pay4 gi) gs bs)
        (k0_pay10 s0 (k0_pay2 s0 s1 w0 w1) bi (k0_pay3 x wt) (k0_pay4 gi) gs bs)
        (k0_pay11 (k0_pay2 s0 s1 w0 w1) bi (k0_pay3 x wt) (k0_pay4 gi) gs bs) gh bh (ix2 p q)
      = outRow (preI (fun k => x (ix2 p k)) (fun k j => wt (ix2 k j)))
          (preS (fun k => s0 (ix2 p k)) (fun k => s1 (ix2 p k)) (fun k j => w0 (ix2 k j)) (fun k j => w1 (ix2 k j)))
          (fun j => gi (ix1 j)) (fun j => bi (ix1 j)) (fun j => gs (ix1 j)) (fun j => bs (ix1 j))
          (fun k => s0 (ix2 p k)) (fun k => s1 (ix2 p k)) (fun k => gh (ix1 k)) (fun k => bh (ix1 k)) q := by
  have hig : (fun j => k0_pay5 bi (k0_pay3 x wt) (k0_pay4 gi) (ix2 p j))
      = layerNorm c4096 eps (preI (fun k => x (ix2 p k)) (fun k j => wt (ix2 k j))) (fun j => gi (ix1 j)) (fun j => bi (ix1 j)) :=
    funext fun j => by rw [pay5_at, pay3_at]; rfl
  have hsg : (fun j => k0_pay6 (k0_pay2 s0 s1 w0 w1) gs bs (ix2 p j))
      = layerNorm c4096 eps (preS (fun k => s0 (ix2 p k)) (fun k => s1 (ix2 p k)) (fun k j => w0 (ix2 k j)) (fun k j => w1 (ix2 k j)))
          (fun j => gs (ix1 j)) (fun j => bs (ix1 j)) :=
    funext fun j => by
      rw [pay6_at]
      exact congrArg (fun s => layerNorm c4096 eps s (fun j => gs (ix1 j)) (fun j => bs (ix1 j)) j)
        (funext fun j' => pay2_at s0 s1 w0 w1 p j')
  rw [pay1_at]
  unfold outRow
  refine congrArg (fun h => layerNorm c1024 eps h (fun k => gh (ix1 k)) (fun k => bh (ix1 k)) q) (funext fun q' => ?_)
  rw [pay7_at, pay8_at, pay10_at, pay11_at, hig, hsg]
  rfl

end Cert.KernelRow
-- ==== Proof.KernelValue.lean ====
/-
  The kernel's result array as one function of the argument arrays.

  Grid point t stages rows 256·t … 256·t+255 of the input, of the two halves of the previous
  state and of the result; the three weight matrices and the six parameter vectors are staged
  whole at every point. The weight windows' arrays are prepared before the region: the transposed
  input weight, and the upper and lower 1024 rows of the transposed state weight (a change of float
  format is the identity on the extended reals). So what point t writes back is rows
  256·t … 256·t+255 of the cell function, the 64 blocks cover the array, and the array after the
  run is GruRow.cell of the arguments.
-/
import Idealize.ShloMosaic.Lib.ValueIdx
import Idealize.ShloMosaic.Lib.Pipeline.Value
import Idealize.ShloMosaic.Lib.ValueLayout
import Idealize.ShloMosaic.Lib.StableHlo.Run
import proofs.«159429_j90177133346850_2_alg».proof.Proof.KernelIdealBlocks
import proofs.«159429_j90177133346850_2_alg».proof.Proof.KernelRow
import proofs.«159429_j90177133346850_2_alg».proof.Proof.GruRow

noncomputable section

open scoped BigOperators

namespace Cert.KernelValue

open Cert.KernelIdeal Cert.KernelIdeal.Gen Idealize.ShloMosaic Idealize.ShloMosaic.TcCoe Idealize.SL.Sem
open Idealize.ShloMosaic.ValueIdx Cert.LibLayerNorm Cert.GruRow
open Idealize.ShloMosaic.Pipeline (Dat)

/-! ## The cell over the arrays as the region finds them (weights already transposed and split) -/

/-- Row r of the result from the region's arrays: the weights K-major, the state weight in two halves. -/
def rowK (X S0 S1 : S16384x1024.Idx → EReal) (WT W0 W1 : S1024x4096.Idx → EReal) (GI BI GS BS : S4096.Idx → EReal)
    (GH BH : S1024.Idx → EReal) (r : Fin 16384) (q : Fin 1024) : EReal :=
  outRow (preI (fun k => X (ix2 r k)) (fun k j => WT (ix2 k j)))
    (preS (fun k => S0 (ix2 r k)) (fun k => S1 (ix2 r k)) (fun k j => W0 (ix2 k j)) (fun k j => W1 (ix2 k j)))
    (fun j => GI (ix1 j)) (fun j => BI (ix1 j)) (fun j => GS (ix1 j)) (fun j => BS (ix1 j))
    (fun k => S0 (ix2 r k)) (fun k => S1 (ix2 r k)) (fun k => GH (ix1 k)) (fun k => BH (ix1 k)) q

def cellK (X S0 S1 : S16384x1024.Idx → EReal) (WT W0 W1 : S1024x4096.Idx → EReal) (GI BI GS BS : S4096.Idx → EReal)
    (GH BH : S1024.Idx → EReal) : S16384x1024.Idx → EReal :=
  fun i => rowK X S0 S1 WT W0 W1 GI BI GS BS GH BH (i 0) (i 1)

/-- The body's stored value at (p, q) of a block whose rows are rows r, r+1, … of the arrays. -/
theorem block_at (X S0 S1 : S16384x1024.Idx → EReal) (WT W0 W1 : S1024x4096.Idx → EReal) (GI BI GS BS : S4096.Idx → EReal)
    (GH BH : S1024.Idx → EReal)
    (x s0 s1 : Vec Ideal S256x1024 .f32) (wt w0 w1 : Vec Ideal S1024x4096 .bf16)
    (gi bi gs bs : Vec Ideal S4096 .f32) (gh bh : Vec Ideal S1024 .f32) (r : Fin 16384) (p : Fin 256) (q : Fin 1024)
    (hx : ∀ k, x (ix2 p k) = X (ix2 r k)) (hs0 : ∀ k, s0 (ix2 p k) = S0 (ix2 r k)) (hs1 : ∀ k, s1 (ix2 p k) = S1 (ix2 r k))
    (hwt : ∀ k j, wt (ix2 k j) = WT (ix2 k j)) (hw0 : ∀ k j, w0 (ix2 k j) = W0 (ix2 k j)) (hw1 : ∀ k j, w1 (ix2 k j) = W1 (ix2 k j))
    (hgi : ∀ j, gi (ix1 j) = GI (ix1 j)) (hbi : ∀ j, bi (ix1 j) = BI (ix1 j))
    (hgs : ∀ j, gs (ix1 j) = GS (ix1 j)) (hbs : ∀ j, bs (ix1 j) = BS (ix1 j))
    (hgh : ∀ k, gh (ix1 k) = GH (ix1 k)) (hbh : ∀ k, bh (ix1 k) = BH (ix1 k)) :
    k0_pay1 s1 (k0_pay7 (k0_pay2 s0 s1 w0 w1) bi (k0_pay3 x wt) (k0_pay4 gi) gs bs)
        (k0_pay8 (k0_pay2 s0 s1 w0 w1) bi (k0_pay3 x wt) (k0_pay4 gi) gs bs)
        (k0_pay10 s0 (k0_pay2 s0 s1 w0 w1) bi (k0_pay3 x wt) (k0_pay4 gi) gs bs)
        (k0_pay11 (k0_pay2 s0 s1 w0 w1) bi (k0_pay3 x wt) (k0_pay4 gi) gs bs) gh bh (ix2 p q)
      = rowK X S0 S1 WT W0 W1 GI BI GS BS GH BH r q := by
  rw [Cert.KernelRow.payload_at]
  have e1 : (fun k => x (ix2 p k)) = fun k => X (ix2 r k) := funext hx
  have e2 : (fun k => s0 (ix2 p k)) = fun k => S0 (ix2 r k) := funext hs0
  have e3 : (fun k => s1 (ix2 p k)) = fun k => S1 (ix2 r k) := funext hs1
  have e4 : (fun k j => wt (ix2 k j)) = fun k j => WT (ix2 k j) := funext fun k => funext (hwt k)
  have e5 : (fun k j => w0 (ix2 k j)) = fun k j => W0 (ix2 k j) := funext fun k => funext (hw0 k)
  have e6 : (fun k j => w1 (ix2 k j)) = fun k j => W1 (ix2 k j) := funext fun k => funext (hw1 k)
  have e7 : (fun j => gi (ix1 j)) = fun j => GI (ix1 j) := funext hgi
  have e8 : (fun j => bi (ix1 j)) = fun j => BI (ix1 j) := funext hbi
  have e9 : (fun j => gs (ix1 j)) = fun j => GS (ix1 j) := funext hgs
  have e10 : (fun j => bs (ix1 j)) = fun j => BS (ix1 j) := funext hbs
  have e11 : (fun k => gh (ix1 k)) = fun k => GH (ix1 k) := funext hgh
  have e12 : (fun k => bh (ix1 k)) = fun k => BH (ix1 k) := funext hbh
  rw [e1, e2, e3, e4, e5, e6, e7, e8, e9, e10, e11, e12]
  rfl

/-! ## The windows -/

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The printed index maps over the 64 grid points: the three row windows and the result move with the
    point along axis 0, every other window stays at block 0. -/
theorem idx_facts : ∀ t : Fin cfg0.N,
    win0_12.index t (0 : Fin 2) = t.val ∧ win0_12.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0 ∧ win0_7.index t (0 : Fin 1) = 0 ∧ win0_8.index t (0 : Fin 1) = 0
    ∧ win0_9.index t (0 : Fin 1) = 0 ∧ win0_10.index t (0 : Fin 1) = 0 ∧ win0_11.index t (0 : Fin 1) = 0 :=
  (by decide +kernel : ∀ t : Fin grid0.N, _)

/-- What point t writes back: rows 256·t … 256·t+255 of the cell over the region's arrays. -/
theorem flushed_eq (c : Dev nD) (t : Fin cfg0.N) :
    (dats m 0 c).flushed 12 t = ((cfg0.win 12).blk t).view.read (Elt Ideal)
      (cellK (V m c main_arg0) (V m c main_arg1) (V m c main_arg2) (V m c main_v1) (V m c main_v4) (V m c main_v5)
        (V m c main_arg5) (V m c main_arg6) (V m c main_arg7) (V m c main_arg8) (V m c main_arg9) (V m c main_arg10)) := by
  rw [Cert.KernelIdeal.ValueP.flushed12]
  unfold out0_12
  rw [View.canon_unit_zero hz2]
  simp only [View.ld_unit_zero (S := S256x1024) hz2, View.ld_unit_zero (S := S1024x4096) hz2,
    View.ld_unit_zero (S := S4096) hz1, View.ld_unit_zero (S := S1024) hz1]
  obtain ⟨a0, a1, b0, b1, c0, c1, d0, d1, e0, e1, f0, f1, g0, g1, h6, h7, h8, h9, h10, h11⟩ := idx_facts t
  have ht : t.val < 64 := lt_of_lt_of_eq t.isLt N_0
  refine funext fun (y : S256x1024.Idx) => ?_
  obtain ⟨p, q, rfl⟩ : ∃ (p : Fin 256) (q : Fin 1024), y = ix2 p q := ⟨y 0, y 1, eq_ix2 y⟩
  have hp := p.isLt
  have hq := q.isLt
  refine (block_at (V m c main_arg0) (V m c main_arg1) (V m c main_arg2) (V m c main_v1) (V m c main_v4) (V m c main_v5)
        (V m c main_arg5) (V m c main_arg6) (V m c main_arg7) (V m c main_arg8) (V m c main_arg9) (V m c main_arg10)
      (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) ⟨t.val * 256 + p.val, by omega⟩ p q
      ?_ ?_ ?_ ?_ ?_ ?_ ?_ ?_ ?_ ?_ ?_ ?_).trans ?_
  · intro k
    show V m c main_arg0 (((cfg0.win 0).blk t).view.emb (ix2 p k)) = _
    refine congrArg (V m c main_arg0) ?_
    funext a; apply Fin.ext
    match a with
    | ⟨0, _⟩ => show win0_0.index t (0 : Fin 2) * 256 + 1 * p.val = t.val * 256 + p.val; omega
    | ⟨1, _⟩ => show win0_0.index t (1 : Fin 2) * 1024 + 1 * k.val = k.val; omega
  · intro k
    show V m c main_arg1 (((cfg0.win 1).blk t).view.emb (ix2 p k)) = _
    refine congrArg (V m c main_arg1) ?_
    funext a; apply Fin.ext
    match a with
    | ⟨0, _⟩ => show win0_1.index t (0 : Fin 2) * 256 + 1 * p.val = t.val * 256 + p.val; omega
    | ⟨1, _⟩ => show win0_1.index t (1 : Fin 2) * 1024 + 1 * k.val = k.val; omega
  · intro k
    show V m c main_arg2 (((cfg0.win 2).blk t).view.emb (ix2 p k)) = _
    refine congrArg (V m c main_arg2) ?_
    funext a; apply Fin.ext
    match a with
    | ⟨0, _⟩ => show win0_2.index t (0 : Fin 2) * 256 + 1 * p.val = t.val * 256 + p.val; omega
    | ⟨1, _⟩ => show win0_2.index t (1 : Fin 2) * 1024 + 1 * k.val = k.val; omega
  · intro k j
    show V m c main_v1 (((cfg0.win 3).blk t).view.emb (ix2 k j)) = _
    refine congrArg (V m c main_v1) ?_
    funext a; apply Fin.ext
    match a with
    | ⟨0, _⟩ => show win0_3.index t (0 : Fin 2) * 1024 + 1 * k.val = k.val; omega
    | ⟨1, _⟩ => show win0_3.index t (1 : Fin 2) * 4096 + 1 * j.val = j.val; omega
  · intro k j
    show V m c main_v4 (((cfg0.win 4).blk t).view.emb (ix2 k j)) = _
    refine congrArg (V m c main_v4) ?_
    funext a; apply Fin.ext
    match a with
    | ⟨0, _⟩ => show win0_4.index t (0 : Fin 2) * 1024 + 1 * k.val = k.val; omega
    | ⟨1, _⟩ => show win0_4.index t (1 : Fin 2) * 4096 + 1 * j.val = j.val; omega
  · intro k j
    show V m c main_v5 (((cfg0.win 5).blk t).view.emb (ix2 k j)) = _
    refine congrArg (V m c main_v5) ?_
    funext a; apply Fin.ext
    match a with
    | ⟨0, _⟩ => show win0_5.index t (0 : Fin 2) * 1024 + 1 * k.val = k.val; omega
    | ⟨1, _⟩ => show win0_5.index t (1 : Fin 2) * 4096 + 1 * j.val = j.val; omega
  · intro j
    show V m c main_arg5 (((cfg0.win 6).blk t).view.emb (ix1 j)) = _
    refine congrArg (V m c main_arg5) ?_
    funext a; apply Fin.ext
    match a with
    | ⟨0, _⟩ => show win0_6.index t (0 : Fin 1) * 4096 + 1 * j.val = j.val; omega
  · intro j
    show V m c main_arg6 (((cfg0.win 7).blk t).view.emb (ix1 j)) = _
    refine congrArg (V m c main_arg6) ?_
    funext a; apply Fin.ext
    match a with
    | ⟨0, _⟩ => show win0_7.index t (0 : Fin 1) * 4096 + 1 * j.val = j.val; omega
  · intro j
    show V m c main_arg7 (((cfg0.win 8).blk t).view.emb (ix1 j)) = _
    refine congrArg (V m c main_arg7) ?_
    funext a; apply Fin.ext
    match a with
    | ⟨0, _⟩ => show win0_8.index t (0 : Fin 1) * 4096 + 1 * j.val = j.val; omega
  · intro j
    show V m c main_arg8 (((cfg0.win 9).blk t).view.emb (ix1 j)) = _
    refine congrArg (V m c main_arg8) ?_
    funext a; apply Fin.ext
    match a with
    | ⟨0, _⟩ => show win0_9.index t (0 : Fin 1) * 4096 + 1 * j.val = j.val; omega
  · intro j
    show V m c main_arg9 (((cfg0.win 10).blk t).view.emb (ix1 j)) = _
    refine congrArg (V m c main_arg9) ?_
    funext a; apply Fin.ext
    match a with
    | ⟨0, _⟩ => show win0_10.index t (0 : Fin 1) * 1024 + 1 * j.val = j.val; omega
  · intro j
    show V m c main_arg10 (((cfg0.win 11).blk t).view.emb (ix1 j)) = _
    refine congrArg (V m c main_arg10) ?_
    funext a; apply Fin.ext
    match a with
    | ⟨0, _⟩ => show win0_11.index t (0 : Fin 1) * 1024 + 1 * j.val = j.val; omega
  · show _ = cellK _ _ _ _ _ _ _ _ _ _ _ _ (((cfg0.win 12).blk t).view.emb (ix2 p q))
    unfold cellK
    refine congrArg₂ (rowK _ _ _ _ _ _ _ _ _ _ _ _) (Fin.ext ?_) (Fin.ext ?_)
    · show t.val * 256 + p.val = win0_12.index t (0 : Fin 2) * 256 + 1 * p.val; omega
    · show q.val = win0_12.index t (1 : Fin 2) * 1024 + 1 * q.val; omega

/-! ## The weight windows' arrays, prepared before the region -/

/-- The transposed input weight at (k, j) is the input weight at (j, k). -/
theorem wt_at (c : Dev nD) (k : Fin 1024) (j : Fin 4096) :
    (V m c main_v1 : S1024x4096.Idx → EReal) (ix2 k j) = (m ((c : Thread nD τ).loc main_arg3) : S4096x1024.Idx → EReal) (ix2 j k) := by
  have e : @Eq (S1024x4096.Idx → EReal) (V m c main_v1)
      (truncf (F := Ideal) .bf16 (transpose S1024x4096 [1, 0]
        (m ((c : Thread nD τ).loc main_arg3) : S4096x1024.Idx → EReal) transposes_S4096x1024_S1024x4096_1_0) bitsLt_bf16_f32) := by
    dsimp only [Gen.V, Gen.hostOps0]; after_results
  rw [e, truncf_apply, transpose_ix2_apply]

/-- The upper 1024 rows of the transposed state weight at (k, j): the state weight at (j, k). -/
theorem w0_at (c : Dev nD) (k : Fin 1024) (j : Fin 4096) :
    (V m c main_v4 : S1024x4096.Idx → EReal) (ix2 k j) = (m ((c : Thread nD τ).loc main_arg4) : S4096x2048.Idx → EReal) (ix2 j (lo k)) := by
  have e : @Eq (S1024x4096.Idx → EReal) (V m c main_v4)
      (extractStridedSlice S1024x4096 ![0, 0]
          (truncf (F := Ideal) .bf16 (transpose S2048x4096 [1, 0]
            (m ((c : Thread nD τ).loc main_arg4) : S4096x2048.Idx → EReal) transposes_S4096x2048_S2048x4096_1_0)
            bitsLt_bf16_f32) slices_S2048x4096_S1024x4096_0_0) := by
    dsimp only [Gen.V, Gen.hostOps0]; after_results
  rw [e, slice2_axis0_apply 0 _ _ k j (lo k) (Nat.zero_add _).symm, truncf_apply, transpose_ix2_apply]

/-- The lower 1024 rows of the transposed state weight at (k, j): the state weight at (j, 1024 + k). -/
theorem w1_at (c : Dev nD) (k : Fin 1024) (j : Fin 4096) :
    (V m c main_v5 : S1024x4096.Idx → EReal) (ix2 k j) = (m ((c : Thread nD τ).loc main_arg4) : S4096x2048.Idx → EReal) (ix2 j (hi k)) := by
  have e : @Eq (S1024x4096.Idx → EReal) (V m c main_v5)
      (extractStridedSlice S1024x4096 ![1024, 0]
          (truncf (F := Ideal) .bf16 (transpose S2048x4096 [1, 0]
            (m ((c : Thread nD τ).loc main_arg4) : S4096x2048.Idx → EReal) transposes_S4096x2048_S2048x4096_1_0)
            bitsLt_bf16_f32) slices_S2048x4096_S1024x4096_1024_0) := by
    dsimp only [Gen.V, Gen.hostOps0]; after_results
  rw [e, slice2_axis0_apply 1024 _ _ k j (hi k) rfl, truncf_apply, transpose_ix2_apply]

/-- The cell over the region's arrays is the cell over the arguments. -/
theorem cellK_eq (c : Dev nD) :
    cellK (V m c main_arg0) (V m c main_arg1) (V m c main_arg2) (V m c main_v1) (V m c main_v4) (V m c main_v5)
        (V m c main_arg5) (V m c main_arg6) (V m c main_arg7) (V m c main_arg8) (V m c main_arg9) (V m c main_arg10)
      = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  show rowK _ _ _ _ _ _ _ _ _ _ _ _ (i 0) (i 1) = entry _ _ _ _ _ _ _ _ _ _ _ (i 0) (i 1)
  unfold rowK entry
  have e4 : (fun (k : Fin 1024) (j : Fin 4096) => (V m c main_v1 : S1024x4096.Idx → EReal) (ix2 k j))
      = fun k j => (m ((c : Thread nD τ).loc main_arg3) : S4096x1024.Idx → EReal) (ix2 j k) :=
    funext fun k => funext fun j => wt_at m c k j
  have e5 : (fun (k : Fin 1024) (j : Fin 4096) => (V m c main_v4 : S1024x4096.Idx → EReal) (ix2 k j))
      = fun k j => (m ((c : Thread nD τ).loc main_arg4) : S4096x2048.Idx → EReal) (ix2 j (lo k)) :=
    funext fun k => funext fun j => w0_at m c k j
  have e6 : (fun (k : Fin 1024) (j : Fin 4096) => (V m c main_v5 : S1024x4096.Idx → EReal) (ix2 k j))
      = fun k j => (m ((c : Thread nD τ).loc main_arg4) : S4096x2048.Idx → EReal) (ix2 j (hi k)) :=
    funext fun k => funext fun j => w1_at m c k j
  rw [e4, e5, e6, V_main_arg0, V_main_arg1, V_main_arg2, V_main_arg5, V_main_arg6, V_main_arg7, V_main_arg8, V_main_arg9,
    V_main_arg10]

/-! ## The cover and the array after the run -/

/-- An index of the result array is in point t's block iff each coordinate is in the block's range. -/
theorem mem_blk (t : Fin cfg0.N) (i : S16384x1024.Idx) :
    i ∈ ((cfg0.win 12).blk t).view.set ↔ ∀ a : Fin 2, win0_12.index t a * S256x1024.size a ≤ (i a).val
      ∧ (i a).val < win0_12.index t a * S256x1024.size a + S256x1024.size a := by
  show i ∈ ((View.whole main_v6).slice (win0_12.rect t)).set ↔ _
  rw [View.set_slice_whole, Rect.mem_set_unit]
  exact Iff.rfl

/-- Every index of the result array lies in the block of the point that holds its row. -/
theorem cover (i : S16384x1024.Idx) :
    ∃ t : Fin cfg0.N, (cfg0.win 12).flush t = true ∧ i ∈ ((cfg0.win 12).blk t).view.set := by
  have hi0 : (i 0).val < 16384 := (i 0).isLt
  have hi1 : (i 1).val < 1024 := (i 1).isLt
  have hN : grid0.N = 64 := N_0
  let t : Fin cfg0.N := ⟨(i 0).val / 256, by show (i 0).val / 256 < grid0.N; omega⟩
  obtain ⟨a0, a1, -⟩ := idx_facts t
  refine ⟨t, flush0_12 t, ?_⟩
  rw [mem_blk]
  intro a
  match a with
  | ⟨0, _⟩ =>
    show win0_12.index t (0 : Fin 2) * 256 ≤ (i 0).val ∧ (i 0).val < win0_12.index t (0 : Fin 2) * 256 + 256
    have : t.val = (i 0).val / 256 := rfl
    omega
  | ⟨1, _⟩ =>
    show win0_12.index t (1 : Fin 2) * 1024 ≤ (i 1).val ∧ (i 1).val < win0_12.index t (1 : Fin 2) * 1024 + 1024
    omega

/-- The result array after the run is the cell of the arguments. -/
theorem final (c : Dev nD) :
    (dats m 0 c).arrAt 12 cfg0.N = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  ((dats m 0 c).arrAt_eq_of_cover 12 _ (fun t _ => flushed_eq m c t) cover).trans (cellK_eq m c)

end Cert.KernelValue
-- ==== Proof.LibConcatAt.lean ====
import Idealize.ShloMosaic.Lib.ValueIdx
import Idealize.ShloMosaic.Lib.Pipeline.Value

/-!
# A concatenation of matrices read at an entry

Two corollaries of the library's reading of a concatenation at an index (`concatenate_apply_piece`), in the two
forms a row-by-row or column-by-column assembly needs, with every index written by its coordinates:

* matrices [Wₖ, N] stacked on top of each other (axis 0) into [R, N]: entry `(j, r)` of the stack is entry
  `(p, r)` of piece `k` when the pieces before `k` have `pre` rows together and `j = pre + p`;
* matrices [N, Wₖ] set side by side (axis 1) into [N, K]: entry `(n, j)` is entry `(n, p)` of piece `k` when the
  pieces before `k` have `pre` columns together and `j = pre + p`.

The piece is named by an equation `xs[k]? = some ⟨shape, x₁⟩`, which for a literal list and a literal `k` is
decided by walking the list and tells Lean what `x₁` is; the count `pre` is a sum over a literal prefix of the list. Nothing here depends
on what the entries are.
-/

namespace Cert.LibConcatAt

open Idealize.ShloMosaic Idealize.ShloMosaic.ValueIdx

variable {α : Type}

/-- The extents of the pieces along axis `a` of the result, as the library's lemma sums them. -/
abbrev extents {t : Shape} (a : Fin t.rank) (ss : List Shape) : List Nat :=
  ss.map fun s => if h : s.rank = t.rank then s.size (a.cast h.symm) else 0

/-- Matrices stacked on top of each other, read at `(j, r)`: row `p` of piece `k`, where `j = pre + p` and `pre`
    is the number of rows of the pieces before `k`. -/
theorem stacked_at {R N W : ℕ} (xs : List ((s : Shape) × (s.Idx → α)))
    (h : Shape.Concatenates (xs.map (·.1)) ⟨2, ![R, N]⟩ (0 : Fin 2)) (j : Fin R) (r : Fin N)
    (k : ℕ) (x₁ : (⟨2, ![W, N]⟩ : Shape).Idx → α) (hxk : xs[k]? = some ⟨⟨2, ![W, N]⟩, x₁⟩)
    (pre : ℕ) (hpre : (extents (t := ⟨2, ![R, N]⟩) (0 : Fin 2) ((xs.take k).map (·.1))).sum = pre)
    (p : Fin W) (hj : pre + p.val = j.val) :
    concatenate ⟨2, ![R, N]⟩ (0 : Fin 2) xs h (ix2 j r) = x₁ (ix2 p r) := by
  obtain ⟨hk, hxk'⟩ := List.getElem?_eq_some_iff.mp hxk
  exact concatenate_apply_piece (t := ⟨2, ![R, N]⟩) (0 : Fin 2) xs h (ix2 j r) k hk ⟨2, ![W, N]⟩ x₁ hxk' rfl pre hpre (ix2 p r)
    (fun b hb => by
      match b with
      | ⟨0, _⟩ => exact absurd rfl hb
      | ⟨1, _⟩ => rfl) hj

/-- Matrices set side by side, read at `(n, j)`: column `p` of piece `k`, where `j = pre + p` and `pre` is the
    number of columns of the pieces before `k`. -/
theorem sideBySide_at {N K W : ℕ} (xs : List ((s : Shape) × (s.Idx → α)))
    (h : Shape.Concatenates (xs.map (·.1)) ⟨2, ![N, K]⟩ (1 : Fin 2)) (n : Fin N) (j : Fin K)
    (k : ℕ) (x₁ : (⟨2, ![N, W]⟩ : Shape).Idx → α) (hxk : xs[k]? = some ⟨⟨2, ![N, W]⟩, x₁⟩)
    (pre : ℕ) (hpre : (extents (t := ⟨2, ![N, K]⟩) (1 : Fin 2) ((xs.take k).map (·.1))).sum = pre)
    (p : Fin W) (hj : pre + p.val = j.val) :
    concatenate ⟨2, ![N, K]⟩ (1 : Fin 2) xs h (ix2 n j) = x₁ (ix2 n p) := by
  obtain ⟨hk, hxk'⟩ := List.getElem?_eq_some_iff.mp hxk
  exact concatenate_apply_piece (t := ⟨2, ![N, K]⟩) (1 : Fin 2) xs h (ix2 n j) k hk ⟨2, ![N, W]⟩ x₁ hxk' rfl pre hpre (ix2 n p)
    (fun b hb => by
      match b with
      | ⟨0, _⟩ => rfl
      | ⟨1, _⟩ => exact absurd rfl hb) hj

/-- Rows [1, N] stacked into [R, N]: row `j` of the stack is the `j`-th piece. The piece is found by walking the
    list to position `j`; that the `j` pieces before it are one row each is a sum over the prefix. -/
theorem stackedRows_at {R N : ℕ} (xs : List ((s : Shape) × (s.Idx → α)))
    (h : Shape.Concatenates (xs.map (·.1)) ⟨2, ![R, N]⟩ (0 : Fin 2)) (j : Fin R) (r : Fin N)
    (x₁ : (⟨2, ![1, N]⟩ : Shape).Idx → α) (hxk : xs[j.val]? = some ⟨⟨2, ![1, N]⟩, x₁⟩)
    (hpre : (extents (t := ⟨2, ![R, N]⟩) (0 : Fin 2) ((xs.take j.val).map (·.1))).sum = j.val) :
    concatenate ⟨2, ![R, N]⟩ (0 : Fin 2) xs h (ix2 j r) = x₁ (ix2 0 r) :=
  stacked_at xs h j r j.val x₁ hxk j.val hpre 0 rfl

/-- Columns [N, 1] set side by side into [N, K]: column `j` of the result is the `j`-th piece. -/
theorem columns_at {N K : ℕ} (xs : List ((s : Shape) × (s.Idx → α)))
    (h : Shape.Concatenates (xs.map (·.1)) ⟨2, ![N, K]⟩ (1 : Fin 2)) (n : Fin N) (j : Fin K)
    (x₁ : (⟨2, ![N, 1]⟩ : Shape).Idx → α) (hxk : xs[j.val]? = some ⟨⟨2, ![N, 1]⟩, x₁⟩)
    (hpre : (extents (t := ⟨2, ![N, K]⟩) (1 : Fin 2) ((xs.take j.val).map (·.1))).sum = j.val) :
    concatenate ⟨2, ![N, K]⟩ (1 : Fin 2) xs h (ix2 n j) = x₁ (ix2 n 0) :=
  sideBySide_at xs h n j j.val x₁ hxk j.val hpre 0 rfl

end Cert.LibConcatAt
-- ==== Proof.RefRow.lean ====
/-
  The reference's run, read at an entry.

  The run's result is stated over named intermediate terms. Each is read here at (p, ·) as the
  row function of GruRow over row p of the arguments: the input's pre-activations (a product with
  the transposed input weight), the state's (a product of the joined state [s0 | s1] with the
  transposed state weight, split into its two halves by the one law of GruRow), their layer
  normalisations, the gates — the host spells the logistic function as 1 / (1 + exp (−z)), which
  is its definition on the extended reals —, the candidate and the new state.
-/
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules
import proofs.«159429_j90177133346850_2_alg».proof.Proof.Gen.ReferenceIdeal.Run
import proofs.«159429_j90177133346850_2_alg».proof.Proof.LibLayerNorm
import proofs.«159429_j90177133346850_2_alg».proof.Proof.LibPlainDot
import proofs.«159429_j90177133346850_2_alg».proof.Proof.LibConcatAt
import proofs.«159429_j90177133346850_2_alg».proof.Proof.LibHostBroadcast
import proofs.«159429_j90177133346850_2_alg».proof.Proof.GruRow

noncomputable section

open scoped BigOperators

namespace Cert.RefRow

open Idealize.ShloMosaic Idealize.ShloMosaic.ValueIdx Cert.LibLayerNorm Cert.GruRow
open Cert.ReferenceIdeal Cert.ReferenceIdeal.Value Idealize.ShloMosaic.StableHlo

/-- The f32 pattern of 1 is the extended real 1. -/
theorem one_eq : one = 1 := IdealRules.sign_bit.ideal_onePat .f32

/-- The host's spelling of the logistic function, 1 / (1 + exp (−z)) over splats of the f32 one, read at an index. -/
theorem sigmoid_at {t : Shape} (z : FVec Ideal t .f32) (dims : Fin 0 → Fin t.rank)
    (h : (⟨0, ![]⟩ : Shape).BroadcastsInDim t dims) (i : t.Idx) :
    Host.divf (broadcastInDim t dims h (constant (⟨0, ![]⟩ : Shape) .f32 0x3F800000#32))
      (addf (broadcastInDim t dims h (constant (⟨0, ![]⟩ : Shape) .f32 0x3F800000#32)) (Host.exp (Host.negf z))) i
      = Ideal.logistic (z i) := by
  rw [hostDivf_apply, addf_apply, Cert.LibHostBroadcast.scalar_at, constant_apply]
  show Ideal.div one (one + Ideal.exp (-(z i))) = _
  rw [one_eq]
  rfl

variable (V0 : Valuation τ sig (Elt Ideal))

/-- The argument arrays, as functions of their indices. -/
abbrev aX : S16384x1024.Idx → EReal := V0 (Proc.devRef .tc main_arg0)
abbrev aS0 : S16384x1024.Idx → EReal := V0 (Proc.devRef .tc main_arg1)
abbrev aS1 : S16384x1024.Idx → EReal := V0 (Proc.devRef .tc main_arg2)
abbrev aWi : S4096x1024.Idx → EReal := V0 (Proc.devRef .tc main_arg3)
abbrev aWs : S4096x2048.Idx → EReal := V0 (Proc.devRef .tc main_arg4)
abbrev aGi : S4096.Idx → EReal := V0 (Proc.devRef .tc main_arg5)
abbrev aBi : S4096.Idx → EReal := V0 (Proc.devRef .tc main_arg6)
abbrev aGs : S4096.Idx → EReal := V0 (Proc.devRef .tc main_arg7)
abbrev aBs : S4096.Idx → EReal := V0 (Proc.devRef .tc main_arg8)
abbrev aGh : S1024.Idx → EReal := V0 (Proc.devRef .tc main_arg9)
abbrev aBh : S1024.Idx → EReal := V0 (Proc.devRef .tc main_arg10)

/-- Row p of the input's and of the state's pre-activations. -/
abbrev rowI (p : Fin 16384) : Fin 4096 → EReal :=
  preI (fun k => aX V0 (ix2 p k)) (fun k j => aWi V0 (ix2 j k))
abbrev rowS (p : Fin 16384) : Fin 4096 → EReal :=
  preS (fun k => aS0 V0 (ix2 p k)) (fun k => aS1 V0 (ix2 p k)) (fun k j => aWs V0 (ix2 j (lo k))) (fun k j => aWs V0 (ix2 j (hi k)))

/-- The input's pre-activations. -/
theorem v2_at (p : Fin 16384) (j : Fin 4096) : res_main_v2 V0 (ix2 p j) = rowI V0 p j := by
  unfold res_main_v2
  refine (Cert.LibPlainDot.dotGeneral_at dot_S16384x1024_S1024x4096_S16384x4096_1_0_0_1_n_n rfl rfl rfl rfl rfl rfl rfl rfl
    none .single _ _ p j).trans ?_
  refine Finset.sum_congr rfl fun k _ => ?_
  rw [transpose_ix2_apply]

/-- The state's pre-activations: the contraction over the joined state, split in its two halves. -/
theorem v28_at (p : Fin 16384) (j : Fin 4096) : res_main_v28 V0 (ix2 p j) = rowS V0 p j := by
  unfold res_main_v28
  refine (Cert.LibPlainDot.dotGeneral_at dot_S16384x2048_S2048x4096_S16384x4096_1_0_0_1_n_n rfl rfl rfl rfl rfl rfl rfl rfl
    none .single _ _ p j).trans ?_
  rw [sum_joined]
  refine congrArg₂ (· + ·) (Finset.sum_congr rfl fun k _ => ?_) (Finset.sum_congr rfl fun k _ => ?_)
  · rw [transpose_ix2_apply,
      Cert.LibConcatAt.sideBySide_at _ _ p (lo k) 0 (V0 (Proc.devRef .tc main_arg1)) rfl 0 rfl k (Nat.zero_add _)]
  · rw [transpose_ix2_apply,
      Cert.LibConcatAt.sideBySide_at _ _ p (hi k) 1 (V0 (Proc.devRef .tc main_arg2)) rfl 1024 rfl k rfl]

/-! ## The two layer normalisations over the 4096 pre-activations -/

/-- The state's gates before the logistic function. -/
theorem v52_at (p : Fin 16384) (j : Fin 4096) :
    res_main_v52 V0 (ix2 p j)
      = layerNorm c4096 eps (rowS V0 p) (fun j => aGs V0 (ix1 j)) (fun j => aBs V0 (ix1 j)) j := by
  unfold res_main_v52 layerNorm
  rw [addf_apply, mulf_apply, paramRowH_at, paramRowH_at]
  refine (congrArg (fun a => a * aGs V0 (ix1 j) + aBs V0 (ix1 j))
    (normedH_at (res_main_v28 V0) 0x45800000#32 0x3727C5AC#32 _ (by decide) _ _ _ _ (res_main_v34 V0) rfl p j)).trans ?_
  refine congrArg (fun s => normed c4096 eps s j * aGs V0 (ix1 j) + aBs V0 (ix1 j)) (funext fun j' => v28_at V0 p j')

/-- The sum of the input's and the state's gates before the logistic function. -/
theorem v53_at (p : Fin 16384) (j : Fin 4096) :
    res_main_v53 V0 (ix2 p j)
      = layerNorm c4096 eps (rowI V0 p) (fun j => aGi V0 (ix1 j)) (fun j => aBi V0 (ix1 j)) j
        + layerNorm c4096 eps (rowS V0 p) (fun j => aGs V0 (ix1 j)) (fun j => aBs V0 (ix1 j)) j := by
  unfold res_main_v53
  rw [addf_apply, v52_at, addf_apply, mulf_apply, paramRowH_at, paramRowH_at]
  unfold layerNorm
  refine congrArg (fun a => a + _) ?_
  refine (congrArg (fun a => a * aGi V0 (ix1 j) + aBi V0 (ix1 j))
    (normedH_at (res_main_v2 V0) 0x45800000#32 0x3727C5AC#32 _ (by decide) _ _ _ _ (res_main_v8 V0) rfl p j)).trans ?_
  refine congrArg (fun s => normed c4096 eps s j * aGi V0 (ix1 j) + aBi V0 (ix1 j)) (funext fun j' => v2_at V0 p j')

/-- Row p of the two normalised gate rows. -/
abbrev rowIg (p : Fin 16384) : Fin 4096 → EReal :=
  layerNorm c4096 eps (rowI V0 p) (fun j => aGi V0 (ix1 j)) (fun j => aBi V0 (ix1 j))
abbrev rowSg (p : Fin 16384) : Fin 4096 → EReal :=
  layerNorm c4096 eps (rowS V0 p) (fun j => aGs V0 (ix1 j)) (fun j => aBs V0 (ix1 j))

/-! ## The gates, the candidate and the new state -/

/-- A quarter of the summed gates, through the host's logistic spelling, is the gate of that quarter. -/
theorem gate_at (o : ℕ) (ho : o + 1024 ≤ 4096) (h : S16384x4096.Slices ![0, o] S16384x1024)
    (dims : Fin 0 → Fin S16384x1024.rank) (hb : (⟨0, ![]⟩ : Shape).BroadcastsInDim S16384x1024 dims)
    (p : Fin 16384) (q : Fin 1024) :
    Host.divf (broadcastInDim S16384x1024 dims hb (constant (⟨0, ![]⟩ : Shape) .f32 0x3F800000#32))
      (addf (broadcastInDim S16384x1024 dims hb (constant (⟨0, ![]⟩ : Shape) .f32 0x3F800000#32))
        (Host.exp (Host.negf (extractStridedSlice S16384x1024 ![0, o] (res_main_v53 V0) h)))) (ix2 p q)
      = gate (rowIg V0 p) (rowSg V0 p) o ho q := by
  rw [sigmoid_at, slice2_axis1_apply o _ _ p q (col o ho q) rfl, v53_at]
  rfl

/-- The update gate. -/
theorem v64_at (p : Fin 16384) (q : Fin 1024) :
    res_main_v64 V0 (ix2 p q) = gate (rowIg V0 p) (rowSg V0 p) 3072 (by norm_num) q := by
  unfold res_main_v64
  exact gate_at V0 3072 (by norm_num) _ _ _ p q

/-- The candidate state. -/
theorem v79_at (p : Fin 16384) (q : Fin 1024) : res_main_v79 V0 (ix2 p q) = cand (rowIg V0 p) (rowSg V0 p) q := by
  unfold res_main_v79 cand
  rw [show ∀ (a : FVec Ideal S16384x1024 .f32) (i : S16384x1024.Idx), Host.tanh a i = Ideal.tanh (a i) from fun _ _ => rfl,
    subf_apply, mulf_apply, gate_at V0 0 (by norm_num) _ _ _ p q,
    slice2_axis1_apply 2048 _ _ p q (col 2048 (by norm_num) q) rfl,
    slice2_axis1_apply 2048 _ _ p q (col 2048 (by norm_num) q) rfl, v53_at, v52_at]

/-- The new state before its normalisation. -/
theorem v87_at (p : Fin 16384) (q : Fin 1024) :
    res_main_v87 V0 (ix2 p q)
      = GruRow.hidden (rowIg V0 p) (rowSg V0 p) (fun k => aS0 V0 (ix2 p k)) (fun k => aS1 V0 (ix2 p k)) q := by
  unfold res_main_v87 GruRow.hidden
  rw [addf_apply, mulf_apply, subf_apply, addf_apply, mulf_apply, mulf_apply, subf_apply, v79_at, v64_at,
    gate_at V0 1024 (by norm_num) _ _ _ p q, Cert.LibHostBroadcast.scalar_at, constant_apply]

/-! ## The result -/

/-- The new state normalised over its 1024 entries: the reference's result at (p, q) — stated for any
    term whose shape is the run's last stage over the named new state. -/
theorem result_at (hred' : S16384x1024.ReducesTo [(1 : Fin 2)] S16384) (hu : 0 < (⟨0, ![]⟩ : Shape).numel)
    (hB : S16384.BroadcastsInDim S16384x1 (![0] : Fin 1 → Fin 2))
    (hS : (⟨0, ![]⟩ : Shape).BroadcastsInDim S16384x1 (![] : Fin 0 → Fin 2))
    (hA : S16384x1.BroadcastsInDim S16384x1024 (![0, 1] : Fin 2 → Fin 2))
    (hE : S1024.BroadcastsInDim S1x1024 (![1] : Fin 1 → Fin 2))
    (hD : S1x1024.BroadcastsInDim S16384x1024 (![0, 1] : Fin 2 → Fin 2)) (p : Fin 16384) (q : Fin 1024) :
    addf (mulf (mulf (subf (res_main_v87 V0) (broadcastInDim S16384x1024 ![0, 1] hA (meanColH (res_main_v87 V0) 0x44800000#32 hred' hu hB hS)))
        (broadcastInDim S16384x1024 ![0, 1] hA
          (Host.rsqrt (addf (meanColH (mulf (res_main_v93 V0) (res_main_v93 V0)) 0x44800000#32 hred' hu hB hS)
            (broadcastInDim S16384x1 (![] : Fin 0 → Fin 2) hS (constant (⟨0, ![]⟩ : Shape) .f32 0x3727C5AC#32))))))
        (broadcastInDim S16384x1024 ![0, 1] hD (broadcastInDim S1x1024 ![1] hE (V0 (Proc.devRef .tc main_arg9)))))
      (broadcastInDim S16384x1024 ![0, 1] hD (broadcastInDim S1x1024 ![1] hE (V0 (Proc.devRef .tc main_arg10)))) (ix2 p q)
      = entry (aX V0) (aS0 V0) (aS1 V0) (aWi V0) (aWs V0) (aGi V0) (aBi V0) (aGs V0) (aBs V0) (aGh V0) (aBh V0) p q := by
  rw [addf_apply, mulf_apply, paramRowH_at, paramRowH_at]
  unfold entry outRow layerNorm
  refine (congrArg (fun a => a * aGh V0 (ix1 q) + aBh V0 (ix1 q))
    (normedH_at (res_main_v87 V0) 0x44800000#32 0x3727C5AC#32 hred' (by decide) hu hB hS hA (res_main_v93 V0) rfl p q)).trans ?_
  refine congrArg (fun s => normed c1024 eps s q * aGh V0 (ix1 q) + aBh V0 (ix1 q)) (funext fun q' => ?_)
  exact v87_at V0 p q'

end Cert.RefRow
-- ==== Proof.lean ====
/-
  The certificate of a layer-normalised gated recurrent cell: a kernel that, per block of 256 batch rows,
  forms the input's and the state's 4096 pre-activations by three products (the state's as two products over
  the two halves of the previous state), normalises each over its row, reads three logistic gates and a tanh
  candidate off the quarters, mixes the new state and normalises it over its 1024 entries — against the same
  cell written with one product over the joined state [s0 | s1] and the logistic function spelt 1 / (1 + exp (−z)).

  On the extended reals both programs compute GruRow.cell of the arguments, entry by entry:
    • the kernel's stored block at (p, q) is GruRow.outRow of row p of its loaded blocks (KernelRow), the 64 blocks
      tile the result array and the weight windows hold the transposed weights (KernelValue);
    • the reference's named intermediate terms at (p, ·) are the same row functions (RefRow); its contraction over the
      2048 joined state entries is the sum of the two contractions over 1024 entries (GruRow.sum_joined), and its
      spelling of the logistic function is that function's definition.
  No step needs a finite value, so the precondition is never opened. The frames of the two kernel programs are the
  generated ones; the reference's frame is its generated run with the result dropped; the idealized kernel is the
  kernel's own text read on the extended reals, so the statement relating the two holds trivially.
-/
import proofs.«159429_j90177133346850_2_alg».proof.Defs
import proofs.«159429_j90177133346850_2_alg».proof.Proof.Gen.Kernel
import proofs.«159429_j90177133346850_2_alg».proof.Proof.Gen.Kernel.Skeleton
import proofs.«159429_j90177133346850_2_alg».proof.Proof.Gen.Kernel.Launch
import proofs.«159429_j90177133346850_2_alg».proof.Proof.Gen.Kernel.Points
import proofs.«159429_j90177133346850_2_alg».proof.Proof.Gen.Kernel.Frame
import proofs.«159429_j90177133346850_2_alg».proof.Proof.Gen.KernelIdeal
import proofs.«159429_j90177133346850_2_alg».proof.Proof.Gen.KernelIdeal.Skeleton
import proofs.«159429_j90177133346850_2_alg».proof.Proof.Gen.KernelIdeal.Launch
import proofs.«159429_j90177133346850_2_alg».proof.Proof.Gen.KernelIdeal.Points
import proofs.«159429_j90177133346850_2_alg».proof.Proof.Gen.KernelIdeal.Frame
import proofs.«159429_j90177133346850_2_alg».proof.Proof.Gen.ReferenceIdeal
import proofs.«159429_j90177133346850_2_alg».proof.Proof.Gen.Pre_finite_inputs
import proofs.«159429_j90177133346850_2_alg».proof.Proof.KernelIdealBlocks
import proofs.«159429_j90177133346850_2_alg».proof.Proof.Gen.ReferenceIdeal.Run
import proofs.«159429_j90177133346850_2_alg».proof.Proof.GruRow
import proofs.«159429_j90177133346850_2_alg».proof.Proof.KernelValue
import proofs.«159429_j90177133346850_2_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: there is nothing to restate. -/
theorem preserves : Cert.preserves_Kernel_KernelIdeal := trivial

/-- Both programs end with GruRow.cell of the arguments in their result array. -/
theorem algebraic : Cert.algebraic_KernelIdeal_ReferenceIdeal := by
  intro m ρ m' ρ' _ hagree
  refine ⟨fun c => Cert.GruRow.cell (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelValue.final m c), (h c).2⟩) (Cert.KernelIdeal.ValueP.run_blocks m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    beta_reduce
    rw [← h0, ← h1, ← h2, ← h3, ← h4, ← h5, ← h6, ← h7, ← h8, ← h9, ← h10]
    funext i
    obtain ⟨p, q, rfl⟩ : ∃ (p : Fin 16384) (q : Fin 1024), i = ix2 p q := ⟨i 0, i 1, eq_ix2 i⟩
    exact Cert.RefRow.result_at (StableHlo.launchContents m' c) _ _ _ _ _ _ _ p q

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
